-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x900x80 : Shape := ⟨3, ![64, 900, 80]⟩
abbrev S64x900x4 : Shape := ⟨3, ![64, 900, 4]⟩
abbrev S64x300x4 : Shape := ⟨3, ![64, 300, 4]⟩
abbrev S64x300 : Shape := ⟨2, ![64, 300]⟩
abbrev S64x4 : Shape := ⟨2, ![64, 4]⟩
abbrev S_ : Shape := ⟨0, ![]⟩

class Facts : Prop where
  bcast_S_S64x900x80 : S_.BroadcastsInDim S64x900x80 (![] : Fin 0 → Fin S64x900x80.rank)
  reducesTo_S64x900x80_S_d0_1_2 : S64x900x80.ReducesTo [0, 1, 2] S_
  h_S_ : 0 < S_.numel
  bcast_S_S64x900x4 : S_.BroadcastsInDim S64x900x4 (![] : Fin 0 → Fin S64x900x4.rank)
  reducesTo_S64x900x4_S_d0_1_2 : S64x900x4.ReducesTo [0, 1, 2] S_
  bcast_S_S64x300x4 : S_.BroadcastsInDim S64x300x4 (![] : Fin 0 → Fin S64x300x4.rank)
  reducesTo_S64x300x4_S_d0_1_2 : S64x300x4.ReducesTo [0, 1, 2] S_
  bcast_S_S64x4 : S_.BroadcastsInDim S64x4 (![] : Fin 0 → Fin S64x4.rank)
  reducesTo_S64x4_S_d0_1 : S64x4.ReducesTo [0, 1] S_

variable [Facts]

def fn_part1 {F : FTy → Type} [FloatOps F] (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  main_v18

def fn {F : FTy → Type} [FloatOps F] (main_arg0 : FVec F S64x900x80 .f32) (main_arg1 : FVec F S64x900x4 .f32) (main_arg2 : FVec F S64x300x4 .f32) (main_arg3 : IVec S64x300 32) (main_arg4 : FVec F S64x4 .f32) : IVec S_ 1 :=
  let main_v0 : FVec F S64x900x80 .f32 := Host.absf main_arg0
  let main_cst : FVec F S_ .f32 := constant S_ .f32 0x7F800000#32
  let main_v1 : FVec F S64x900x80 .f32 := broadcastInDim S64x900x80 ![] bcast_S_S64x900x80 main_cst
  let main_v2 : IVec S64x900x80 1 := cmpf .olt main_v0 main_v1
  let main_c : IVec S_ 1 := constantI S_ 1 1#1
  let main_v3 : IVec S_ 1 := (fun x v => Host.reduce IntOp.andi x v reducesTo_S64x900x80_S_d0_1_2 h_S_) main_v2 main_c
  let main_v4 : FVec F S64x900x4 .f32 := Host.absf main_arg1
  let main_cst_0 : FVec F S_ .f32 := constant S_ .f32 0x7F800000#32
  let main_v5 : FVec F S64x900x4 .f32 := broadcastInDim S64x900x4 ![] bcast_S_S64x900x4 main_cst_0
  let main_v6 : IVec S64x900x4 1 := cmpf .olt main_v4 main_v5
  let main_c_1 : IVec S_ 1 := constantI S_ 1 1#1
  let main_v7 : IVec S_ 1 := (fun x v => Host.reduce IntOp.andi x v reducesTo_S64x900x4_S_d0_1_2 h_S_) main_v6 main_c_1
  let main_v8 : IVec S_ 1 := andi main_v3 main_v7
  let main_v9 : FVec F S64x300x4 .f32 := Host.absf main_arg2
  let main_cst_2 : FVec F S_ .f32 := constant S_ .f32 0x7F800000#32
  let main_v10 : FVec F S64x300x4 .f32 := broadcastInDim S64x300x4 ![] bcast_S_S64x300x4 main_cst_2
  let main_v11 : IVec S64x300x4 1 := cmpf .olt main_v9 main_v10
  let main_c_3 : IVec S_ 1 := constantI S_ 1 1#1
  let main_v12 : IVec S_ 1 := (fun x v => Host.reduce IntOp.andi x v reducesTo_S64x300x4_S_d0_1_2 h_S_) main_v11 main_c_3
  let main_v13 : IVec S_ 1 := andi main_v8 main_v12
  let main_v14 : FVec F S64x4 .f32 := Host.absf main_arg4
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_v13 main_v16
-- ==== Kernel.lean ====
abbrev S64x900x80 : Shape := ⟨3, ![64, 900, 80]⟩
abbrev S64x900x4 : Shape := ⟨3, ![64, 900, 4]⟩
abbrev S64x300x4 : Shape := ⟨3, ![64, 300, 4]⟩
abbrev S64x300 : Shape := ⟨2, ![64, 300]⟩
abbrev S64x4 : Shape := ⟨2, ![64, 4]⟩
abbrev S64x1x300 : Shape := ⟨3, ![64, 1, 300]⟩
abbrev S64x1x4 : Shape := ⟨3, ![64, 1, 4]⟩
abbrev S64x900x300 : Shape := ⟨3, ![64, 900, 300]⟩
abbrev S1x900x80 : Shape := ⟨3, ![1, 900, 80]⟩
abbrev S1x900x4 : Shape := ⟨3, ![1, 900, 4]⟩
abbrev S1x300x4 : Shape := ⟨3, ![1, 300, 4]⟩
abbrev S1x1x300 : Shape := ⟨3, ![1, 1, 300]⟩
abbrev S1x1x4 : Shape := ⟨3, ![1, 1, 4]⟩
abbrev S1x900x300 : Shape := ⟨3, ![1, 900, 300]⟩
abbrev S900x80 : Shape := ⟨2, ![900, 80]⟩
abbrev S900 : Shape := ⟨1, ![900]⟩
abbrev S900x1 : Shape := ⟨2, ![900, 1]⟩
abbrev S300 : Shape := ⟨1, ![300]⟩
abbrev S300x80 : Shape := ⟨2, ![300, 80]⟩
abbrev S300x1 : Shape := ⟨2, ![300, 1]⟩
abbrev S900x300 : Shape := ⟨2, ![900, 300]⟩
abbrev S900x4 : Shape := ⟨2, ![900, 4]⟩
abbrev S300x4 : Shape := ⟨2, ![300, 4]⟩
abbrev S4 : Shape := ⟨1, ![4]⟩
abbrev S1 : Shape := ⟨1, ![1]⟩
abbrev S1x300 : Shape := ⟨2, ![1, 300]⟩

abbrev nBuf : Space → Nat
  | .hbm => 8
  | .vmem => 12
  | .smem => 0
  | _ => 0

abbrev bufTy : (tb : Table) → Fin (tcTables nBuf tb) → BufTy
  | .hbm, ⟨0, _⟩ => ⟨S64x900x80, .f32⟩
  | .hbm, ⟨1, _⟩ => ⟨S64x900x4, .f32⟩
  | .hbm, ⟨2, _⟩ => ⟨S64x300x4, .f32⟩
  | .hbm, ⟨3, _⟩ => ⟨S64x300, .i32⟩
  | .hbm, ⟨4, _⟩ => ⟨S64x4, .f32⟩
  | .hbm, ⟨5, _⟩ => ⟨S64x1x300, .i32⟩
  | .hbm, ⟨6, _⟩ => ⟨S64x1x4, .f32⟩
  | .hbm, ⟨7, _⟩ => ⟨S64x900x300, .f32⟩
  | .local _ .vmem, ⟨0, _⟩ => ⟨S1x900x80, .f32⟩
  | .local _ .vmem, ⟨1, _⟩ => ⟨S1x900x80, .f32⟩
  | .local _ .vmem, ⟨2, _⟩ => ⟨S1x900x4, .f32⟩
  | .local _ .vmem, ⟨3, _⟩ => ⟨S1x900x4, .f32⟩
  | .local _ .vmem, ⟨4, _⟩ => ⟨S1x300x4, .f32⟩
  | .local _ .vmem, ⟨5, _⟩ => ⟨S1x300x4, .f32⟩
  | .local _ .vmem, ⟨6, _⟩ => ⟨S1x1x300, .i32⟩
  | .local _ .vmem, ⟨7, _⟩ => ⟨S1x1x300, .i32⟩
  | .local _ .vmem, ⟨8, _⟩ => ⟨S1x1x4, .f32⟩
  | .local _ .vmem, ⟨9, _⟩ => ⟨S1x1x4, .f32⟩
  | .local _ .vmem, ⟨10, _⟩ => ⟨S1x900x300, .f32⟩
  | .local _ .vmem, ⟨11, _⟩ => ⟨S1x900x300, .f32⟩
  | _, _ => ⟨S64x900x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x900x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x900x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x300x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x300 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x900x300 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x300_S64x1x300 : S64x300.ShapeCasts S64x1x300
  shapeCasts_S64x4_S64x1x4 : S64x4.ShapeCasts S64x1x4
  inb_S1x900x80_S1x900x80_0_0_0 : ∀ a, (![0, 0, 0] : Fin 3 → Nat) a + S1x900x80.size a ≤ S1x900x80.size a
  h_S1x900x80 : 0 < S1x900x80.numel
  shapeCasts_S1x900x80_S900x80 : S1x900x80.ShapeCasts S900x80
  reduces_S900x80_S900 : S900x80.Reduces [1] S900
  shapeCasts_S900_S900x1 : S900.ShapeCasts S900x1
  broadcasts_S900x1_S900x80 : S900x1.Broadcasts S900x80
  inb_S1x1x300_S1x1x300_0_0_0 : ∀ a, (![0, 0, 0] : Fin 3 → Nat) a + S1x1x300.size a ≤ S1x1x300.size a
  h_S1x1x300 : 0 < S1x1x300.numel
  shapeCasts_S1x1x300_S300 : S1x1x300.ShapeCasts S300
  iota_S300x80_d1_w32 : S300x80.Iotas .tc 32 [1]
  shapeCasts_S300_S300x1 : S300.ShapeCasts S300x1
  broadcasts_S300x1_S300x80 : S300x1.Broadcasts S300x80
  natLt_1_32 : 1 < 32
  bitsLt_bf16_f32 : FTy.bits .bf16 < FTy.bits .f32
  inb_S1x900x4_S1x900x4_0_0_0 : ∀ a, (![0, 0, 0] : Fin 3 → Nat) a + S1x900x4.size a ≤ S1x900x4.size a
  h_S1x900x4 : 0 < S1x900x4.numel
  shapeCasts_S1x900x4_S900x4 : S1x900x4.ShapeCasts S900x4
  inb_S1x300x4_S1x300x4_0_0_0 : ∀ a, (![0, 0, 0] : Fin 3 → Nat) a + S1x300x4.size a ≤ S1x300x4.size a
  h_S1x300x4 : 0 < S1x300x4.numel
  shapeCasts_S1x300x4_S300x4 : S1x300x4.ShapeCasts S300x4
  inb_S1x1x4_S1x1x4_0_0_0 : ∀ a, (![0, 0, 0] : Fin 3 → Nat) a + S1x1x4.size a ≤ S1x1x4.size a
  h_S1x1x4 : 0 < S1x1x4.numel
  shapeCasts_S1x1x4_S4 : S1x1x4.ShapeCasts S4
  slices_S900x4_o0_0_S900x1 : S900x4.Slices ![0, 0] S900x1
  shapeCasts_S900x1_S900 : S900x1.ShapeCasts S900
  slices_S900x4_o0_1_S900x1 : S900x4.Slices ![0, 1] S900x1
  slices_S900x4_o0_2_S900x1 : S900x4.Slices ![0, 2] S900x1
  slices_S900x4_o0_3_S900x1 : S900x4.Slices ![0, 3] S900x1
  slices_S300x4_o0_0_S300x1 : S300x4.Slices ![0, 0] S300x1
  shapeCasts_S300x1_S300 : S300x1.ShapeCasts S300
  slices_S300x4_o0_1_S300x1 : S300x4.Slices ![0, 1] S300x1
  slices_S300x4_o0_2_S300x1 : S300x4.Slices ![0, 2] S300x1
  slices_S300x4_o0_3_S300x1 : S300x4.Slices ![0, 3] S300x1
  slices_S4_o0_S1 : S4.Slices ![0] S1
  inpos_S1_p0 : ∀ a, (![0] : Fin 1 → Nat) a < S1.size a
  slices_S4_o1_S1 : S4.Slices ![1] S1
  slices_S4_o2_S1 : S4.Slices ![2] S1
  slices_S4_o3_S1 : S4.Slices ![3] S1
  shapeCasts_S300_S1x300 : S300.ShapeCasts S1x300
  broadcasts_S900x1_S900x300 : S900x1.Broadcasts S900x300
  broadcasts_S1x300_S900x300 : S1x300.Broadcasts S900x300
  inb_S1x900x300_S1x900x300_0_0_0 : ∀ a, (![0, 0, 0] : Fin 3 → Nat) a + S1x900x300.size a ≤ S1x900x300.size a
  h_S1x900x300 : 0 < S1x900x300.numel
  shapeCasts_S1x900x300_S900x300 : S1x900x300.ShapeCasts S900x300
  shapeCasts_S900x300_S1x900x300 : S900x300.ShapeCasts S1x900x300
  dot_S900x80_S300x80_S900x300_1_1_0_0_n_n_wf : DotDims.WF S900x80 S300x80 S900x300 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x900x80.size a ≤ S64x900x80.size a
  hwx0_0 : ∀ i : grid0.Coords, EltTy.bits .f32 = 32 ∨ (Rect.block (s := S64x900x80) S1x900x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x900x4.size a ≤ S64x900x4.size a
  hwx0_1 : ∀ i : grid0.Coords, EltTy.bits .f32 = 32 ∨ (Rect.block (s := S64x900x4) S1x900x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x300x4.size a ≤ S64x300x4.size a
  hwx0_2 : ∀ i : grid0.Coords, EltTy.bits .f32 = 32 ∨ (Rect.block (s := S64x300x4) S1x300x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x300.size a ≤ S64x1x300.size a
  hwx0_3 : ∀ i : grid0.Coords, EltTy.bits .i32 = 32 ∨ (Rect.block (s := S64x1x300) S1x1x300.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4.size a ≤ S64x1x4.size a
  hwx0_4 : ∀ i : grid0.Coords, EltTy.bits .f32 = 32 ∨ (Rect.block (s := S64x1x4) S1x1x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x900x300.size a ≤ S64x900x300.size a
  hwx0_5 : ∀ i : grid0.Coords, EltTy.bits .f32 = 32 ∨ (Rect.block (s := S64x900x300) S1x900x300.size (cc0_transform_5 i) (hinb0_5 i)).WholeWords (EltTy.packing .f32)

variable [Facts₀]

def dot_S900x80_S300x80_S900x300_1_1_0_0_n_n : DotDims S900x80 S300x80 S900x300 where
  lhsContracting := [1]
  rhsContracting := [1]
  lhsNonContracting := [0]
  rhsNonContracting := [0]
  lhsBatch := []
  rhsBatch := []
  wf := dot_S900x80_S300x80_S900x300_1_1_0_0_n_n_wf

abbrev win0_0 : Pipeline.Window sig grid0 :=
  Pipeline.Window.ofSpec (Memref.whole main_arg0) S1x900x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x900x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x300x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x300.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x900x300.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x900x80 : Shape := ⟨3, ![64, 900, 80]⟩
abbrev S64x900x4 : Shape := ⟨3, ![64, 900, 4]⟩
abbrev S64x300x4 : Shape := ⟨3, ![64, 300, 4]⟩
abbrev S64x300 : Shape := ⟨2, ![64, 300]⟩
abbrev S64x4 : Shape := ⟨2, ![64, 4]⟩
abbrev S_ : Shape := ⟨0, ![]⟩
abbrev S64x900 : Shape := ⟨2, ![64, 900]⟩
abbrev S64x900x1 : Shape := ⟨3, ![64, 900, 1]⟩
abbrev S64x300x1 : Shape := ⟨3, ![64, 300, 1]⟩
abbrev S1x1x80 : Shape := ⟨3, ![1, 1, 80]⟩
abbrev S64x300x80 : Shape := ⟨3, ![64, 300, 80]⟩
abbrev S64x900x300 : Shape := ⟨3, ![64, 900, 300]⟩
abbrev S64x1x4 : Shape := ⟨3, ![64, 1, 4]⟩
abbrev S64x900x1x4 : Shape := ⟨4, ![64, 900, 1, 4]⟩
abbrev S64x1x300x4 : Shape := ⟨4, ![64, 1, 300, 4]⟩
abbrev S64x900x300x4 : Shape := ⟨4, ![64, 900, 300, 4]⟩
abbrev S64x900x2 : Shape := ⟨3, ![64, 900, 2]⟩
abbrev S64x900x1x2 : Shape := ⟨4, ![64, 900, 1, 2]⟩
abbrev S64x300x2 : Shape := ⟨3, ![64, 300, 2]⟩
abbrev S64x1x300x2 : Shape := ⟨4, ![64, 1, 300, 2]⟩
abbrev S64x900x300x2 : Shape := ⟨4, ![64, 900, 300, 2]⟩
abbrev S64x900x300x1 : Shape := ⟨4, ![64, 900, 300, 1]⟩
abbrev S64x1x300 : Shape := ⟨3, ![64, 1, 300]⟩

abbrev nBuf : Space → Nat
  | .hbm => 146
  | .vmem => 0
  | .smem => 0
  | _ => 0

abbrev hbmTy0_0 (i : Nat) : BufTy := match i % 128 with
  | 0 => ⟨S64x900x80, .f32⟩
  | 1 => ⟨S64x900x4, .f32⟩
  | 2 => ⟨S64x300x4, .f32⟩
  | 3 => ⟨S64x300, .i32⟩
  | 4 => ⟨S64x4, .f32⟩
  | 5 => ⟨S_, .f32⟩
  | 6 => ⟨S64x900, .f32⟩
  | 7 => ⟨S_, .f32⟩
  | 8 => ⟨S64x900, .f32⟩
  | 9 => ⟨S64x900, .f32⟩
  | 10 => ⟨S64x900x1, .f32⟩
  | 11 => ⟨S64x900x80, .f32⟩
  | 12 => ⟨S64x900x80, .f32⟩
  | 13 => ⟨S64x900x80, .f32⟩
  | 14 => ⟨S_, .f32⟩
  | 15 => ⟨S64x900, .f32⟩
  | 16 => ⟨S64x900x1, .f32⟩
  | 17 => ⟨S64x900x80, .f32⟩
  | 18 => ⟨S64x900x80, .f32⟩
  | 19 => ⟨S64x300x1, .i32⟩
  | 20 => ⟨S1x1x80, .i32⟩
  | 21 => ⟨S64x300x80, .i32⟩
  | 22 => ⟨S64x300x80, .i32⟩
  | 23 => ⟨S64x300x80, .i1⟩
  | 24 => ⟨S64x300x80, .f32⟩
  | 25 => ⟨S64x900x300, .f32⟩
  | 26 => ⟨S64x900x300, .f32⟩
  | 27 => ⟨S64x1x4, .f32⟩
  | 28 => ⟨S64x900x4, .f32⟩
  | 29 => ⟨S64x900x4, .f32⟩
  | 30 => ⟨S64x1x4, .f32⟩
  | 31 => ⟨S64x300x4, .f32⟩
  | 32 => ⟨S64x300x4, .f32⟩
  | 33 => ⟨S64x900x1x4, .f32⟩
  | 34 => ⟨S64x1x300x4, .f32⟩
  | 35 => ⟨S64x900x300x4, .f32⟩
  | 36 => ⟨S64x900x300x4, .f32⟩
  | 37 => ⟨S64x900x300x4, .f32⟩
  | 38 => ⟨S64x900x300x4, .f32⟩
  | 39 => ⟨S_, .f32⟩
  | 40 => ⟨S64x900x300, .f32⟩
  | 41 => ⟨S64x900x1, .f32⟩
  | 42 => ⟨S64x900, .f32⟩
  | 43 => ⟨S64x900x1, .f32⟩
  | 44 => ⟨S64x900, .f32⟩
  | 45 => ⟨S64x900, .f32⟩
  | 46 => ⟨S64x900x1, .f32⟩
  | 47 => ⟨S64x900, .f32⟩
  | 48 => ⟨S64x900x1, .f32⟩
  | 49 => ⟨S64x900, .f32⟩
  | 50 => ⟨S64x900, .f32⟩
  | 51 => ⟨S64x900, .f32⟩
  | 52 => ⟨S64x300x1, .f32⟩
  | 53 => ⟨S64x300, .f32⟩
  | 54 => ⟨S64x300x1, .f32⟩
  | 55 => ⟨S64x300, .f32⟩
  | 56 => ⟨S64x300, .f32⟩
  | 57 => ⟨S64x300x1, .f32⟩
  | 58 => ⟨S64x300, .f32⟩
  | 59 => ⟨S64x300x1, .f32⟩
  | 60 => ⟨S64x300, .f32⟩
  | 61 => ⟨S64x300, .f32⟩
  | 62 => ⟨S64x300, .f32⟩
  | 63 => ⟨S64x900x2, .f32⟩
  | 64 => ⟨S64x900x1x2, .f32⟩
  | 65 => ⟨S64x300x2, .f32⟩
  | 66 => ⟨S64x1x300x2, .f32⟩
  | 67 => ⟨S64x900x300x2, .f32⟩
  | 68 => ⟨S64x900x300x2, .f32⟩
  | 69 => ⟨S64x900x300x2, .f32⟩
  | 70 => ⟨S64x900x2, .f32⟩
  | 71 => ⟨S64x900x1x2, .f32⟩
  | 72 => ⟨S64x300x2, .f32⟩
  | 73 => ⟨S64x1x300x2, .f32⟩
  | 74 => ⟨S64x900x300x2, .f32⟩
  | 75 => ⟨S64x900x300x2, .f32⟩
  | 76 => ⟨S64x900x300x2, .f32⟩
  | 77 => ⟨S64x900x300x2, .f32⟩
  | 78 => ⟨S_, .f32⟩
  | 79 => ⟨S_, .f32⟩
  | 80 => ⟨S64x900x300x2, .f32⟩
  | 81 => ⟨S64x900x300x2, .f32⟩
  | 82 => ⟨S64x900x300x1, .f32⟩
  | 83 => ⟨S64x900x300, .f32⟩
  | 84 => ⟨S64x900x300x1, .f32⟩
  | 85 => ⟨S64x900x300, .f32⟩
  | 86 => ⟨S64x900x300, .f32⟩
  | 87 => ⟨S64x900x1, .f32⟩
  | 88 => ⟨S64x1x300, .f32⟩
  | 89 => ⟨S64x900x300, .f32⟩
  | 90 => ⟨S64x900x300, .f32⟩
  | 91 => ⟨S64x900x300, .f32⟩
  | 92 => ⟨S64x900x300, .f32⟩
  | 93 => ⟨S_, .f32⟩
  | 94 => ⟨S64x900x300, .f32⟩
  | 95 => ⟨S64x900x300, .i1⟩
  | 96 => ⟨S_, .f32⟩
  | 97 => ⟨S64x900x300, .f32⟩
  | 98 => ⟨S64x900x300, .f32⟩
  | 99 => ⟨S64x900x300, .f32⟩
  | 100 => ⟨S_, .f32⟩
  | 101 => ⟨S_, .f32⟩
  | 102 => ⟨S64x900x300, .f32⟩
  | 103 => ⟨S64x900x300, .f32⟩
  | 104 => ⟨S64x900x2, .f32⟩
  | 105 => ⟨S64x900x1x2, .f32⟩
  | 106 => ⟨S64x300x2, .f32⟩
  | 107 => ⟨S64x1x300x2, .f32⟩
  | 108 => ⟨S64x900x300x2, .f32⟩
  | 109 => ⟨S64x900x300x2, .f32⟩
  | 110 => ⟨S64x900x300x2, .f32⟩
  | 111 => ⟨S64x900x2, .f32⟩
  | 112 => ⟨S64x900x1x2, .f32⟩
  | 113 => ⟨S64x300x2, .f32⟩
  | 114 => ⟨S64x1x300x2, .f32⟩
  | 115 => ⟨S64x900x300x2, .f32⟩
  | 116 => ⟨S64x900x300x2, .f32⟩
  | 117 => ⟨S64x900x300x2, .f32⟩
  | 118 => ⟨S64x900x300x2, .f32⟩
  | 119 => ⟨S_, .f32⟩
  | 120 => ⟨S_, .f32⟩
  | 121 => ⟨S64x900x300x2, .f32⟩
  | 122 => ⟨S64x900x300x2, .f32⟩
  | 123 => ⟨S64x900x300x1, .f32⟩
  | 124 => ⟨S64x900x300, .f32⟩
  | 125 => ⟨S64x900x300x1, .f32⟩
  | 126 => ⟨S64x900x300, .f32⟩
  | 127 => ⟨S64x900x300, .f32⟩
  | _ => ⟨S64x900x80, .f32⟩

abbrev hbmTy0_1 (i : Nat) : BufTy := match i % 128 with
  | 0 => ⟨S64x900x300, .f32⟩
  | 1 => ⟨S_, .f32⟩
  | 2 => ⟨S64x900x300, .f32⟩
  | 3 => ⟨S64x900x300, .f32⟩
  | 4 => ⟨S64x900x300, .f32⟩
  | 5 => ⟨S64x900x300, .f32⟩
  | 6 => ⟨S64x900x300, .f32⟩
  | 7 => ⟨S_, .f32⟩
  | 8 => ⟨S64x900x300, .f32⟩
  | 9 => ⟨S64x900x300, .f32⟩
  | 10 => ⟨S_, .f32⟩
  | 11 => ⟨S64x900x300, .f32⟩
  | 12 => ⟨S64x900x300, .f32⟩
  | 13 => ⟨S64x900x300, .f32⟩
  | 14 => ⟨S_, .f32⟩
  | 15 => ⟨S64x900x300, .f32⟩
  | 16 => ⟨S64x900x300, .f32⟩
  | 17 => ⟨S64x900x300, .f32⟩
  | _ => ⟨S64x900x80, .f32⟩

abbrev hbmTy (i : Nat) : BufTy := match i / 128 with
  | 0 => hbmTy0_0 i
  | 1 => hbmTy0_1 i
  | _ => ⟨S64x900x80, .f32⟩

abbrev bufTy : (tb : Table) → Fin (tcTables nBuf tb) → BufTy
  | .hbm, ⟨i, _⟩ => hbmTy i
  | _, _ => ⟨S64x900x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_3 : Ref sig .tc := ⟨.hbm, 78, rfl⟩
abbrev main_call1_v0 : Ref sig .tc := ⟨.hbm, 79, rfl⟩
abbrev main_call1_v1 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_4 : Ref sig .tc := ⟨.hbm, 93, rfl⟩
abbrev main_v76 : Ref sig .tc := ⟨.hbm, 94, rfl⟩
abbrev main_v77 : Ref sig .tc := ⟨.hbm, 95, rfl⟩
abbrev main_cst_5 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_6 : Ref sig .tc := ⟨.hbm, 100, rfl⟩
abbrev main_call2_v0 : Ref sig .tc := ⟨.hbm, 101, rfl⟩
abbrev main_call2_v1 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_7 : Ref sig .tc := ⟨.hbm, 119, rfl⟩
abbrev main_call3_v0 : Ref sig .tc := ⟨.hbm, 120, rfl⟩
abbrev main_call3_v1 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_8 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_9 : Ref sig .tc := ⟨.hbm, 135, rfl⟩
abbrev main_v109 : Ref sig .tc := ⟨.hbm, 136, rfl⟩
abbrev main_v110 : Ref sig .tc := ⟨.hbm, 137, rfl⟩
abbrev main_cst_10 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_11 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩

abbrev nD : Nat := 1
abbrev τ : Topo := Topo.v7x

variable {F : FTy → Type} [FloatOps F]

class Facts₀ : Prop where
  reducesTo_S64x900x80_S64x900_d2 : S64x900x80.ReducesTo [2] S64x900
  h_S_ : 0 < S_.numel
  bcast_S_S64x900 : S_.BroadcastsInDim S64x900 (![] : Fin 0 → Fin S64x900.rank)
  bcast_S64x900_S64x900x1_0_1 : S64x900.BroadcastsInDim S64x900x1 (![0, 1] : Fin 2 → Fin S64x900x1.rank)
  bcast_S64x900x1_S64x900x80_0_1_2 : S64x900x1.BroadcastsInDim S64x900x80 (![0, 1, 2] : Fin 3 → Fin S64x900x80.rank)
  bcast_S64x300_S64x300x1_0_1 : S64x300.BroadcastsInDim S64x300x1 (![0, 1] : Fin 2 → Fin S64x300x1.rank)
  bcast_S64x300x1_S64x300x80_0_1_2 : S64x300x1.BroadcastsInDim S64x300x80 (![0, 1, 2] : Fin 3 → Fin S64x300x80.rank)
  bcast_S1x1x80_S64x300x80_0_1_2 : S1x1x80.BroadcastsInDim S64x300x80 (![0, 1, 2] : Fin 3 → Fin S64x300x80.rank)
  bcast_S64x4_S64x1x4_0_2 : S64x4.BroadcastsInDim S64x1x4 (![0, 2] : Fin 2 → Fin S64x1x4.rank)
  bcast_S64x1x4_S64x900x4_0_1_2 : S64x1x4.BroadcastsInDim S64x900x4 (![0, 1, 2] : Fin 3 → Fin S64x900x4.rank)
  bcast_S64x1x4_S64x300x4_0_1_2 : S64x1x4.BroadcastsInDim S64x300x4 (![0, 1, 2] : Fin 3 → Fin S64x300x4.rank)
  bcast_S64x900x4_S64x900x1x4_0_1_3 : S64x900x4.BroadcastsInDim S64x900x1x4 (![0, 1, 3] : Fin 3 → Fin S64x900x1x4.rank)
  bcast_S64x300x4_S64x1x300x4_0_2_3 : S64x300x4.BroadcastsInDim S64x1x300x4 (![0, 2, 3] : Fin 3 → Fin S64x1x300x4.rank)
  bcast_S64x900x1x4_S64x900x300x4_0_1_2_3 : S64x900x1x4.BroadcastsInDim S64x900x300x4 (![0, 1, 2, 3] : Fin 4 → Fin S64x900x300x4.rank)
  bcast_S64x1x300x4_S64x900x300x4_0_1_2_3 : S64x1x300x4.BroadcastsInDim S64x900x300x4 (![0, 1, 2, 3] : Fin 4 → Fin S64x900x300x4.rank)
  reducesTo_S64x900x300x4_S64x900x300_d3 : S64x900x300x4.ReducesTo [3] S64x900x300
  slices_S64x900x4_S64x900x1_0_0_2 : S64x900x4.Slices ![0, 0, 2] S64x900x1
  shapeCasts_S64x900x1_S64x900 : S64x900x1.ShapeCasts S64x900
  slices_S64x900x4_S64x900x1_0_0_0 : S64x900x4.Slices ![0, 0, 0] S64x900x1
  slices_S64x900x4_S64x900x1_0_0_3 : S64x900x4.Slices ![0, 0, 3] S64x900x1
  slices_S64x900x4_S64x900x1_0_0_1 : S64x900x4.Slices ![0, 0, 1] S64x900x1
  slices_S64x300x4_S64x300x1_0_0_2 : S64x300x4.Slices ![0, 0, 2] S64x300x1
  shapeCasts_S64x300x1_S64x300 : S64x300x1.ShapeCasts S64x300
  slices_S64x300x4_S64x300x1_0_0_0 : S64x300x4.Slices ![0, 0, 0] S64x300x1
  slices_S64x300x4_S64x300x1_0_0_3 : S64x300x4.Slices ![0, 0, 3] S64x300x1
  slices_S64x300x4_S64x300x1_0_0_1 : S64x300x4.Slices ![0, 0, 1] S64x300x1
  slices_S64x900x4_S64x900x2_0_0_0 : S64x900x4.Slices ![0, 0, 0] S64x900x2
  bcast_S64x900x2_S64x900x1x2_0_1_3 : S64x900x2.BroadcastsInDim S64x900x1x2 (![0, 1, 3] : Fin 3 → Fin S64x900x1x2.rank)
  slices_S64x300x4_S64x300x2_0_0_0 : S64x300x4.Slices ![0, 0, 0] S64x300x2
  bcast_S64x300x2_S64x1x300x2_0_2_3 : S64x300x2.BroadcastsInDim S64x1x300x2 (![0, 2, 3] : Fin 3 → Fin S64x1x300x2.rank)
  bcast_S64x900x1x2_S64x900x300x2_0_1_2_3 : S64x900x1x2.BroadcastsInDim S64x900x300x2 (![0, 1, 2, 3] : Fin 4 → Fin S64x900x300x2.rank)
  bcast_S64x1x300x2_S64x900x300x2_0_1_2_3 : S64x1x300x2.BroadcastsInDim S64x900x300x2 (![0, 1, 2, 3] : Fin 4 → Fin S64x900x300x2.rank)
  slices_S64x900x4_S64x900x2_0_0_2 : S64x900x4.Slices ![0, 0, 2] S64x900x2
  slices_S64x300x4_S64x300x2_0_0_2 : S64x300x4.Slices ![0, 0, 2] S64x300x2
  bcast_S_S64x900x300x2 : S_.BroadcastsInDim S64x900x300x2 (![] : Fin 0 → Fin S64x900x300x2.rank)
  slices_S64x900x300x2_S64x900x300x1_0_0_0_0 : S64x900x300x2.Slices ![0, 0, 0, 0] S64x900x300x1
  shapeCasts_S64x900x300x1_S64x900x300 : S64x900x300x1.ShapeCasts S64x900x300
  slices_S64x900x300x2_S64x900x300x1_0_0_0_1 : S64x900x300x2.Slices ![0, 0, 0, 1] S64x900x300x1
  bcast_S64x300_S64x1x300_0_2 : S64x300.BroadcastsInDim S64x1x300 (![0, 2] : Fin 2 → Fin S64x1x300.rank)
  bcast_S64x900x1_S64x900x300_0_1_2 : S64x900x1.BroadcastsInDim S64x900x300 (![0, 1, 2] : Fin 3 → Fin S64x900x300.rank)
  bcast_S64x1x300_S64x900x300_0_1_2 : S64x1x300.BroadcastsInDim S64x900x300 (![0, 1, 2] : Fin 3 → Fin S64x900x300.rank)
  bcast_S_S64x900x300 : S_.BroadcastsInDim S64x900x300 (![] : Fin 0 → Fin S64x900x300.rank)
  dot_S64x900x80_S64x300x80_S64x900x300_2_2_1_1_0_0_wf : DotDims.WF S64x900x80 S64x300x80 S64x900x300 [2] [2] [1] [1] [0] [0]

variable [Facts₀]

def dot_S64x900x80_S64x300x80_S64x900x300_2_2_1_1_0_0 : DotDims S64x900x80 S64x300x80 S64x900x300 where
  lhsContracting := [2]
  rhsContracting := [2]
  lhsNonContracting := [1]
  rhsNonContracting := [1]
  lhsBatch := [0]
  rhsBatch := [0]
  wf := dot_S64x900x80_S64x300x80_S64x900x300_2_2_1_1_0_0_wf

class Facts : Prop extends Facts₀ where

variable [Facts]
-- ==== Proof.Spec.lean ====
/-
  The matching cost of one (query, target) pair, as a function on the extended reals, and the cost array of a batch.

  For a query with class scores `lg : Fin 80 → EReal` and box `bq`, a target with box `bt` and class word `cls`, and the
  image's size row `wh` (boxes are (x1, y1, x2, y2)):
    * the class term is minus the softmax probability of the target's class: the scores shifted by their row maximum,
      exponentiated, divided by their sum, and paired with the 0/1 indicator of the class by a sum over the 80 classes;
    * the box term is the sum over the four coordinates of |bq k / wh k − bt k / wh k|;
    * the overlap term is minus the generalized IoU: the IoU (zero where the intersection is empty) minus the share of the
      enclosing box the union does not fill, both quotients with the same small constant added to the divisor.
  The cost is 5 · box + 1 · class + 2 · overlap. The float words (−∞, 0, the small constant, the three weights) are kept
  as the words both programs print: the same word on both sides is never evaluated.
-/
import Idealize.ShloMosaic.PureOps.Ideal
import Idealize.ShloMosaic.Lib.ValueIdx

noncomputable section

namespace Cert.MatchCost

open Idealize.ShloMosaic Idealize.ShloMosaic.ValueIdx

/-- −∞: where a row maximum starts. -/
abbrev negInf : EReal := Ideal.ofBits .f32 0xFF800000#32
/-- The f32 word of zero. -/
abbrev zero32 : EReal := Ideal.ofBits .f32 0x00000000#32
/-- The small constant added to both divisors. -/
abbrev eps : EReal := Ideal.ofBits .f32 0x33D6BF95#32
/-- The three weights: 5, 1, 2. -/
abbrev wBox : EReal := Ideal.ofBits .f32 0x40A00000#32
abbrev wClass : EReal := Ideal.ofBits .f32 0x3F800000#32
abbrev wOverlap : EReal := Ideal.ofBits .f32 0x40000000#32

/-- The maximum of a row of scores (from −∞, and once more against −∞, as both programs take it). -/
def rowMax (lg : Fin 80 → EReal) : EReal :=
  max negInf ((Finset.univ : Finset (Fin 80)).fold max negInf lg)

/-- A shifted, exponentiated score. -/
def expo (lg : Fin 80 → EReal) (c : Fin 80) : EReal := Ideal.exp (lg c - rowMax lg)

/-- The softmax probability of class `c`. -/
def prob (lg : Fin 80 → EReal) (c : Fin 80) : EReal := Ideal.div (expo lg c) (∑ k : Fin 80, expo lg k)

/-- The indicator of "the target's class word is `c`": the comparison's bit read as a number. -/
def hot (cls : BitVec 32) (c : Fin 80) : EReal :=
  (((IntOp.cmpi .eq cls (BitVec.ofNat 32 c.val)).toNat : ℝ) : EReal)

/-- Minus the probability of the target's class. -/
def classCost (lg : Fin 80 → EReal) (cls : BitVec 32) : EReal := -(∑ c : Fin 80, prob lg c * hot cls c)

/-- One coordinate's distance after dividing by the image size. -/
def coordDist (bq bt wh : Fin 4 → EReal) (k : Fin 4) : EReal :=
  max (Ideal.div (bq k) (wh k) - Ideal.div (bt k) (wh k)) (-(Ideal.div (bq k) (wh k) - Ideal.div (bt k) (wh k)))

/-- The L1 distance of the normalized boxes. -/
def boxCost (bq bt wh : Fin 4 → EReal) : EReal := ∑ k : Fin 4, coordDist bq bt wh k

/-- A box's area. -/
def area (b : Fin 4 → EReal) : EReal := (b 2 - b 0) * (b 3 - b 1)

/-- The intersection's area: both extents clamped at zero. -/
def inter (bq bt : Fin 4 → EReal) : EReal :=
  max zero32 (min (bq 2) (bt 2) - max (bq 0) (bt 0)) * max zero32 (min (bq 3) (bt 3) - max (bq 1) (bt 1))

/-- The union's area. -/
def union (bq bt : Fin 4 → EReal) : EReal := area bq + area bt - inter bq bt

/-- The IoU, zero where the intersection is empty. -/
def iou (bq bt : Fin 4 → EReal) : EReal :=
  Scalar.select (Ideal.cmp .ogt (inter bq bt) zero32) (Ideal.div (inter bq bt) (union bq bt + eps)) zero32

/-- The enclosing box's area. -/
def hull (bq bt : Fin 4 → EReal) : EReal :=
  max zero32 (max (bq 2) (bt 2) - min (bq 0) (bt 0)) * max zero32 (max (bq 3) (bt 3) - min (bq 1) (bt 1))

/-- The generalized IoU. -/
def giou (bq bt : Fin 4 → EReal) : EReal :=
  iou bq bt - Ideal.div (hull bq bt - union bq bt) (hull bq bt + eps)

/-- The matching cost of the pair. -/
def cost (lg : Fin 80 → EReal) (bq bt wh : Fin 4 → EReal) (cls : BitVec 32) : EReal :=
  wBox * boxCost bq bt wh + wClass * classCost lg cls + wOverlap * (-(giou bq bt))

/-- The cost array of a batch: entry (b, q, t) is the cost of query `q` and target `t` of image `b`. -/
def costArray (x0 : (⟨3, ![64, 900, 80]⟩ : Shape).Idx → EReal) (x1 : (⟨3, ![64, 900, 4]⟩ : Shape).Idx → EReal)
    (x2 : (⟨3, ![64, 300, 4]⟩ : Shape).Idx → EReal) (x3 : (⟨2, ![64, 300]⟩ : Shape).Idx → BitVec 32)
    (x4 : (⟨2, ![64, 4]⟩ : Shape).Idx → EReal) : (⟨3, ![64, 900, 300]⟩ : Shape).Idx → EReal :=
  fun i => cost (fun c => x0 (ix3 (n0 := 64) (n1 := 900) (n2 := 80) (i 0) (i 1) c))
    (fun k => x1 (ix3 (n0 := 64) (n1 := 900) (n2 := 4) (i 0) (i 1) k))
    (fun k => x2 (ix3 (n0 := 64) (n1 := 300) (n2 := 4) (i 0) (i 2) k))
    (fun k => x4 (ix2 (n0 := 64) (n1 := 4) (i 0) k))
    (x3 (ix2 (n0 := 64) (n1 := 300) (i 0) (i 2)))

theorem costArray_apply (x0 : (⟨3, ![64, 900, 80]⟩ : Shape).Idx → EReal) (x1 : (⟨3, ![64, 900, 4]⟩ : Shape).Idx → EReal)
    (x2 : (⟨3, ![64, 300, 4]⟩ : Shape).Idx → EReal) (x3 : (⟨2, ![64, 300]⟩ : Shape).Idx → BitVec 32)
    (x4 : (⟨2, ![64, 4]⟩ : Shape).Idx → EReal) (b : Fin 64) (q : Fin 900) (t : Fin 300) :
    costArray x0 x1 x2 x3 x4 (ix3 b q t) = cost (fun c => x0 (ix3 b q c)) (fun k => x1 (ix3 b q k))
      (fun k => x2 (ix3 b t k)) (fun k => x4 (ix2 b k)) (x3 (ix2 b t)) := rfl

/-- The comparison's bit, widened to 32 bits and read signed, is the bit read unsigned. -/
theorem bit_signed_eq_unsigned (b : BitVec 1) :
    ((((b.setWidth 32).toInt : ℤ) : ℝ) : EReal) = (((b.toNat : ℕ) : ℝ) : EReal) := by
  by_cases h : b = 1#1
  · subst h; norm_num
  · have h0 := eq_zero_of_ne_one h
    subst h0; norm_num

end Cert.MatchCost

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibBlockSpread.lean ====
/-
  Layout operations of a pairwise kernel block read at an entry, generic in the extents and the element type.

  A kernel that combines every row p of one block with every row c of another spreads a per-row quantity over the
  other axis: a length-a vector becomes a column [a, 1] and is broadcast to [a, b] (entry (p, c) is the vector at p);
  a length-b vector becomes a row [1, b] and is broadcast to [a, b] (entry (p, c) is the vector at c). The quantities
  come from columns picked out of an [a, n] block (a slice of width one, its unit axis dropped) and from single
  lanes picked out of a short vector; blocks arrive with leading unit axes, which a shape cast drops.
-/
import Idealize.ShloMosaic.Lib.Pipeline.Value
import Idealize.ShloMosaic.Lib.ValueIdx
import Idealize.ShloMosaic.Lib.ValueLayout
import proofs.«127615_j635655159996_1_alg».proof.Proof.LibKeepdimsColumn

noncomputable section

namespace Cert.BlockSpread

open Idealize.ShloMosaic Idealize.ShloMosaic.ValueIdx

variable {α : Type} {a b n : ℕ}

/-- A vector made a column and broadcast along the rows' other axis: entry (p, c) is the vector at p. -/
theorem col_spread (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) :=
  (Cert.KeepdimsColumn.broadcastTo_a1_ab_apply _ h2 p c).trans
    (Cert.KeepdimsColumn.shapeCast_a_a1_apply v h1 p 0)

/-- A vector made a row and broadcast down the rows: entry (p, c) is the vector at c. -/
theorem row_spread (w : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ w h1) h2 (ix2 p c) = w (ix1 c) :=
  (broadcastTo_1b_ab_apply _ h2 p c).trans (shapeCast_a_1a_apply w h1 0 c)

/-- An [a, 1] column with its unit axis dropped reads, at i, the column at (i, 0). -/
theorem shapeCast_a1_a_apply (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A [1, 1, a] block with its two unit axes dropped reads, at i, the block at (0, 0, i). -/
theorem shapeCast_11a_a_apply (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- Column `k` of an [a, n] block, as a vector: the slice of width one at offset `o = k`, its unit axis dropped. -/
theorem col_pick (o : ℕ) (X : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (p : Fin a) (k : Fin n) (hk : k.val = o) :
    shapeCast ⟨1, ![a]⟩ (extractStridedSlice ⟨2, ![a, 1]⟩ ![0, o] X hs) hc (ix1 p) = X (ix2 p k) :=
  (shapeCast_a1_a_apply _ hc p).trans (slice2_axis1_apply o X hs p 0 k (by rw [hk]; rfl))

/-- Lane `k` of a vector, as a scalar: the slice of length one at offset `o = k`, read at its one position. -/
theorem lane_pick (o : ℕ) (v : (⟨1, ![n]⟩ : Shape).Idx → α) (hs : (⟨1, ![n]⟩ : Shape).Slices ![o] ⟨1, ![1]⟩)
    (hp : ∀ d : Fin (⟨1, ![1]⟩ : Shape).rank, (![0] : Fin 1 → ℕ) d < (⟨1, ![1]⟩ : Shape).size d)
    (k : Fin n) (hk : k.val = o) :
    extractAt (s := ⟨1, ![1]⟩) ![0] (extractStridedSlice ⟨1, ![1]⟩ ![o] v hs) hp = v (ix1 k) := by
  unfold extractAt
  refine extractStridedSlice_apply _ v hs _ (ix1 k) fun d => ?_
  match d with
  | ⟨0, _⟩ => show k.val = o + 0; omega

end Cert.BlockSpread

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibMatmulNT.lean ====
/-
  A reusable lemma: the product of a matrix with the TRANSPOSE of another, read at an entry.

  A `tpu.matmul` whose dimension numbers contract the LAST axis of both operands — an [M,K] left operand and an
  [N,K] right operand, result [M,N] — accumulated into zeros is, at the ideal instance and at the entry (p, q),
      Σ_k lhs[p,k] · rhs[q,k],
  the sum over k : Fin K.  The statement is generic in M, K, N and in the operands' float formats, and holds for any
  dimension record equal to the library's `DotDims.transposedRhs M K N`.
-/
import Idealize.ShloMosaic.PureOps.Ideal.Laws
import Idealize.ShloMosaic.Lib.ValueIdx

noncomputable section

namespace Cert.MatmulNT

open Idealize.ShloMosaic Idealize.ShloMosaic.ValueIdx

variable {M K N : Nat}

/-- The left operand is read in the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand is read in the row numbered by the result's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- A matrix times the transpose of another, into zeros, at the entry (p, q): Σ_k lhs[p,k] · rhs[q,k]. -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    matmul d prec lhs rhs (constant (F := Ideal) ⟨2, ![M, N]⟩ .f32 0x00000000#32) (ix2 p q)
      = ∑ k : Fin K, lhs (ix2 p k) * rhs (ix2 q k) := by
  subst hd
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k :=
    funext fun a => Fin.ext (by
      match a with
      | ⟨0, _⟩ => exact rhs_row _ _
      | ⟨1, _⟩ => exact ((DotDims.transposedRhs M K N).rhsIdx_val_of_single rfl _ _).trans hk)
  rw [el, er]

end Cert.MatmulNT

end
-- ==== Proof.KerCost.lean ====
/-
  The kernel's block of results read at an entry, in terms of the specification.

  At one grid point the body holds one image's blocks: scores [1, 900, 80], predicted boxes [1, 900, 4], target boxes
  [1, 300, 4], class words [1, 1, 300] and the size row [1, 1, 4], and stores the cost block [1, 900, 300]. Entry
  (0, q, t) of what it stores depends on row q of the scores and of the predicted boxes, row t of the target boxes,
  lane t of the class words and the size row: it is the matching cost of that pair.

  Each lemma reads one of the body's values at an index written by coordinates. Box columns and size lanes are picked
  out of their blocks; per-query vectors are spread as columns and per-target vectors as rows of the [900, 300] block;
  the softmax's row maximum and row sum and the product with the class indicator (which contracts the class axis of
  both operands) are sums and a fold over the 80 classes. Two spellings differ from the specification's: a difference
  from the zero word where it has a negation, and three nested additions where it has a sum over four coordinates.
-/
import proofs.«127615_j635655159996_1_alg».proof.Proof.Gen.KernelIdeal.Frame
import proofs.«127615_j635655159996_1_alg».proof.Proof.Spec
import proofs.«127615_j635655159996_1_alg».proof.Proof.LibBlockSpread
import proofs.«127615_j635655159996_1_alg».proof.Proof.LibSlabLayout
import proofs.«127615_j635655159996_1_alg».proof.Proof.LibMatmulNT
import Idealize.ShloMosaic.PureOps.Ideal.Laws

noncomputable section

namespace Cert.MatchCost.Ker

open Idealize.ShloMosaic Idealize.ShloMosaic.ValueIdx Cert.KernelIdeal Cert.KernelIdeal.Gen Cert.BlockSpread

variable (q : Fin 900) (t : Fin 300)

/-- A difference from the zero word is a negation. -/
theorem zero_word_sub (x : EReal) : Ideal.ofBits .f32 0x00000000#32 - x = -x := by
  rw [Ideal.ofBits_zero_f32, zero_sub]

theorem absf_apply {s : Shape} {φ : FTy} (a : FVec Ideal s φ) (i : s.Idx) : absf a i = max (a i) (-(a i)) := rfl
theorem exp_apply {s : Shape} {φ : FTy} (a : FVec Ideal s φ) (i : s.Idx) : exp a i = Ideal.exp (a i) := rfl
theorem cmpi_apply {s : Shape} {w : Nat} (p : CmpIPredicate) (a b : IVec s w) (i : s.Idx) :
    cmpi p a b i = IntOp.cmpi p (a i) (b i) := rfl

/-! ## Rows of the blocks, columns of the boxes, lanes of the size row -/

theorem predRow (X1 : Vec Ideal S1x900x4 .f32) (k : Fin 4) : k0_pay3 (F := Ideal) X1 (ix2 q k) = X1 (ix3 0 q k) :=
  shapeCast_1ab_ab_apply X1 _ q k

theorem tgtRow (X2 : Vec Ideal S1x300x4 .f32) (k : Fin 4) : k0_pay4 (F := Ideal) X2 (ix2 t k) = X2 (ix3 0 t k) :=
  shapeCast_1ab_ab_apply X2 _ t k

theorem sizeRow (X4 : Vec Ideal S1x1x4 .f32) (k : Fin 4) : k0_pay5 (F := Ideal) X4 (ix1 k) = X4 (ix3 0 0 k) :=
  shapeCast_11a_a_apply X4 _ k

theorem predCol0 (X1 : Vec Ideal S1x900x4 .f32) : k0_pay6 (F := Ideal) X1 (ix1 q) = X1 (ix3 0 q 0) :=
  (col_pick 0 (k0_pay3 (F := Ideal) X1) _ _ q 0 rfl).trans (predRow q X1 0)
theorem predCol1 (X1 : Vec Ideal S1x900x4 .f32) : k0_pay7 (F := Ideal) X1 (ix1 q) = X1 (ix3 0 q 1) :=
  (col_pick 1 (k0_pay3 (F := Ideal) X1) _ _ q 1 rfl).trans (predRow q X1 1)
theorem predCol2 (X1 : Vec Ideal S1x900x4 .f32) : k0_pay8 (F := Ideal) X1 (ix1 q) = X1 (ix3 0 q 2) :=
  (col_pick 2 (k0_pay3 (F := Ideal) X1) _ _ q 2 rfl).trans (predRow q X1 2)
theorem predCol3 (X1 : Vec Ideal S1x900x4 .f32) :
    k0_pay10 (F := Ideal) (k0_pay9 (F := Ideal) X1) (ix1 q) = X1 (ix3 0 q 3) :=
  (col_pick 3 (k0_pay3 (F := Ideal) X1) slices_S900x4_o0_3_S900x1 shapeCasts_S900x1_S900 q 3 rfl).trans (predRow q X1 3)

theorem tgtCol0 (v29 : FVec Ideal S300x4 .f32) : k0_pay11 (F := Ideal) v29 (ix1 t) = v29 (ix2 t 0) :=
  col_pick 0 v29 _ _ t 0 rfl
theorem tgtCol1 (v29 : FVec Ideal S300x4 .f32) : k0_pay12 (F := Ideal) v29 (ix1 t) = v29 (ix2 t 1) :=
  col_pick 1 v29 _ _ t 1 rfl
theorem tgtCol2 (v29 : FVec Ideal S300x4 .f32) : k0_pay13 (F := Ideal) v29 (ix1 t) = v29 (ix2 t 2) :=
  col_pick 2 v29 _ _ t 2 rfl
theorem tgtCol3 (v29 : FVec Ideal S300x4 .f32) : k0_pay14 (F := Ideal) v29 (ix1 t) = v29 (ix2 t 3) :=
  col_pick 3 v29 _ _ t 3 rfl

theorem sizeLane0 (v31 : FVec Ideal S4 .f32) : k0_pay15 (F := Ideal) v31 = v31 (ix1 0) := lane_pick 0 v31 _ _ 0 rfl
theorem sizeLane1 (v31 : FVec Ideal S4 .f32) : k0_pay16 (F := Ideal) v31 = v31 (ix1 1) := lane_pick 1 v31 _ _ 1 rfl
theorem sizeLane2 (v31 : FVec Ideal S4 .f32) : k0_pay17 (F := Ideal) v31 = v31 (ix1 2) := lane_pick 2 v31 _ _ 2 rfl
theorem sizeLane3 (v31 : FVec Ideal S4 .f32) : k0_pay18 (F := Ideal) v31 = v31 (ix1 3) := lane_pick 3 v31 _ _ 3 rfl

/-! ## The normalized coordinates -/

theorem norm23 (v : FVec Ideal S900 .f32) (w : Ideal .f32) :
    k0_pay23 (F := Ideal) v w (ix1 q) = Ideal.div (v (ix1 q)) w := rfl
theorem norm24 (v : FVec Ideal S900 .f32) (w : Ideal .f32) :
    k0_pay24 (F := Ideal) v w (ix1 q) = Ideal.div (v (ix1 q)) w := rfl
theorem norm25 (v : FVec Ideal S900 .f32) (w : Ideal .f32) :
    k0_pay25 (F := Ideal) v w (ix1 q) = Ideal.div (v (ix1 q)) w := rfl
theorem norm26 (v : FVec Ideal S900 .f32) (w : Ideal .f32) :
    k0_pay26 (F := Ideal) v w (ix1 q) = Ideal.div (v (ix1 q)) w := rfl
theorem norm27 (v : FVec Ideal S300 .f32) (w : Ideal .f32) :
    k0_pay27 (F := Ideal) v w (ix1 t) = Ideal.div (v (ix1 t)) w := rfl
theorem norm28 (v : FVec Ideal S300 .f32) (w : Ideal .f32) :
    k0_pay28 (F := Ideal) v w (ix1 t) = Ideal.div (v (ix1 t)) w := rfl
theorem norm29 (v : FVec Ideal S300 .f32) (w : Ideal .f32) :
    k0_pay29 (F := Ideal) v w (ix1 t) = Ideal.div (v (ix1 t)) w := rfl

/-! ## The class term -/

/-- Minus the probability of the target's class: the softmax of row q of the scores, paired with the indicator of
    the class word of target t by the product that contracts the class axis of both. -/
theorem classTerm (X0 : Vec Ideal S1x900x80 .f32) (X3 : Vec Ideal S1x1x300 .i32) :
    k0_pay2 (F := Ideal) X0 X3 (ix2 q t) = classCost (fun c => X0 (ix3 0 q c)) (X3 (ix3 0 0 t)) := by
  have hmm : ∀ (l : FVec Ideal S900x80 .bf16) (r : FVec Ideal S300x80 .bf16),
      matmul dot_S900x80_S300x80_S900x300_1_1_0_0_n_n none l r (constant (F := Ideal) S900x300 .f32 0x00000000#32) (ix2 q t)
        = ∑ k : Fin 80, l (ix2 q k) * r (ix2 t k) :=
    fun l r => Cert.MatmulNT.matmul_zero_apply _ rfl none l r q t
  have hsum : ∀ src : FVec Ideal S900x80 .f32,
      multiReduction .add [1] S900 src 0x00000000#32 reduces_S900x80_S900 (.inl rfl) rfl (ix1 q)
        = ∑ k : Fin 80, src (ix2 q k) :=
    fun src => Cert.SlabLayout.rowSum_apply src _ _ _ _ q
  have hmax : ∀ src : FVec Ideal S900x80 .f32,
      multiReduction .maximumf [1] S900 src 0xFF800000#32 reduces_S900x80_S900 (.inl rfl) rfl (ix1 q)
        = (Finset.univ : Finset (Fin 80)).fold max (Ideal.ofBits .f32 0xFF800000#32) (fun k => src (ix2 q k)) :=
    fun src => Cert.SlabLayout.rowMax_apply src _ _ _ _ q
  unfold k0_pay2
  simp only [subf_apply, broadcast_apply, hmm, truncf_apply, divf_apply, exp_apply, col_spread, hsum, hmax,
    maximumf_apply, shapeCast_1ab_ab_apply, sitofp_apply, extui_apply, cmpi_apply, iota_single_apply,
    shapeCast_11a_a_apply]
  show (Ideal.ofBits .f32 0x00000000#32 : EReal) - _ = _
  rw [zero_word_sub]
  refine congrArg Neg.neg (Finset.sum_congr rfl fun k _ => ?_)
  refine congrArg₂ (· * ·) rfl ?_
  have hio : iota .tc S300x80 32 [1] iota_S300x80_d1_w32 (ix2 t k) = BitVec.ofNat 32 k.val :=
    iota_single_apply .tc S300x80 32 1 iota_S300x80_d1_w32 (ix2 t k)
  rw [hio]
  exact bit_signed_eq_unsigned (IntOp.cmpi .eq (X3 (ix3 0 0 t)) (BitVec.ofNat 32 k.val))

/-! ## The box terms over the spread columns and rows -/

/-- The intersection's area at (q, t), over the predicted columns and the target block. -/
theorem interTerm (v29 : FVec Ideal S300x4 .f32) (v33 v35 v37 : FVec Ideal S900 .f32) (v38 : FVec Ideal S900x1 .f32) :
    k0_pay19 (F := Ideal) v29 v33 v35 v37 v38 (ix2 q t)
      = max zero32 (min (v37 (ix1 q)) (k0_pay13 (F := Ideal) v29 (ix1 t)) - max (v33 (ix1 q)) (k0_pay11 (F := Ideal) v29 (ix1 t)))
        * max zero32 (min (k0_pay10 (F := Ideal) v38 (ix1 q)) (k0_pay14 (F := Ideal) v29 (ix1 t))
            - max (v35 (ix1 q)) (k0_pay12 (F := Ideal) v29 (ix1 t))) := by
  unfold k0_pay19
  simp only [mulf_apply, maximumf_apply, minimumf_apply, subf_apply, broadcast_apply, col_spread, row_spread]
  rfl

/-- The union's area at (q, t): the two areas spread along the other axis, minus the intersection. -/
theorem unionTerm (v29 : FVec Ideal S300x4 .f32) (v33 v35 v37 : FVec Ideal S900 .f32) (v38 : FVec Ideal S900x1 .f32) :
    k0_pay20 (F := Ideal) v29 v33 v35 v37 v38 (ix2 q t)
      = (v37 (ix1 q) - v33 (ix1 q)) * (k0_pay10 (F := Ideal) v38 (ix1 q) - v35 (ix1 q))
        + (k0_pay13 (F := Ideal) v29 (ix1 t) - k0_pay11 (F := Ideal) v29 (ix1 t))
          * (k0_pay14 (F := Ideal) v29 (ix1 t) - k0_pay12 (F := Ideal) v29 (ix1 t))
        - k0_pay19 (F := Ideal) v29 v33 v35 v37 v38 (ix2 q t) := by
  unfold k0_pay20
  simp only [mulf_apply, addf_apply, subf_apply, col_spread, row_spread]

/-- The zero block the intersection is compared with. -/
theorem zeroBlock : k0_pay21 (F := Ideal) (ix2 q t) = zero32 := rfl

/-- The overlap term at (q, t), over the columns, the intersection `v88`, the union `v94` and the zero block `v95`:
    the zero word minus (the selected IoU minus the unfilled share of the enclosing box). -/
theorem overlapTerm (v33 v35 v37 v39 : FVec Ideal S900 .f32) (v41 v43 v45 v47 : FVec Ideal S300 .f32)
    (v88 v94 v95 : FVec Ideal S900x300 .f32) :
    k0_pay22 (F := Ideal) v33 v35 v37 v39 v41 v43 v45 v47 v88 v94 v95 (ix2 q t)
      = zero32 - (Scalar.select (Ideal.cmp .ogt (v88 (ix2 q t)) (v95 (ix2 q t)))
            (Ideal.div (v88 (ix2 q t)) (v94 (ix2 q t) + eps)) zero32
          - Ideal.div
              (max zero32 (max (v37 (ix1 q)) (v45 (ix1 t)) - min (v33 (ix1 q)) (v41 (ix1 t)))
                * max zero32 (max (v39 (ix1 q)) (v47 (ix1 t)) - min (v35 (ix1 q)) (v43 (ix1 t))) - v94 (ix2 q t))
              (max zero32 (max (v37 (ix1 q)) (v45 (ix1 t)) - min (v33 (ix1 q)) (v41 (ix1 t)))
                * max zero32 (max (v39 (ix1 q)) (v47 (ix1 t)) - min (v35 (ix1 q)) (v43 (ix1 t))) + eps)) := by
  unfold k0_pay22
  simp only [mulf_apply, addf_apply, subf_apply, divf_apply, maximumf_apply, minimumf_apply, broadcast_apply,
    select_apply, cmpf_apply, col_spread, row_spread]
  rfl

/-- The stored block at (0, q, t), over the class term `v25`, the overlap term `v135` and the normalized columns:
    5 · (the four distances added one after the other) + 1 · class + 2 · overlap. -/
theorem storedTerm (v25 v135 : FVec Ideal S900x300 .f32) (v47 : FVec Ideal S300 .f32) (v55 : Ideal .f32)
    (v137 v139 v141 v143 : FVec Ideal S900 .f32) (v145 v147 v149 : FVec Ideal S300 .f32) :
    k0_pay1 (F := Ideal) v25 v47 v55 v135 v137 v139 v141 v143 v145 v147 v149 (ix3 0 q t)
      = wBox * (max (v137 (ix1 q) - v145 (ix1 t)) (-(v137 (ix1 q) - v145 (ix1 t)))
            + max (v139 (ix1 q) - v147 (ix1 t)) (-(v139 (ix1 q) - v147 (ix1 t)))
            + max (v141 (ix1 q) - v149 (ix1 t)) (-(v141 (ix1 q) - v149 (ix1 t)))
            + max (v143 (ix1 q) - Ideal.div (v47 (ix1 t)) v55) (-(v143 (ix1 q) - Ideal.div (v47 (ix1 t)) v55)))
        + wClass * v25 (ix2 q t) + wOverlap * v135 (ix2 q t) := by
  unfold k0_pay1
  simp only [shapeCast_ab_1ab_apply, mulf_apply, addf_apply, subf_apply, divf_apply, absf_apply, broadcast_apply,
    col_spread, row_spread]
  rfl

/-! ## The block the body stores -/

theorem zeros3 : (![0, 0, 0] : Fin 3 → Nat) = fun _ => 0 := funext fun a => by fin_cases a <;> rfl

/-- The box term's sum over the four coordinates, written out. -/
theorem boxCost_four (bq bt wh : Fin 4 → EReal) :
    boxCost bq bt wh = coordDist bq bt wh 0 + coordDist bq bt wh 1 + coordDist bq bt wh 2 + coordDist bq bt wh 3 :=
  Fin.sum_univ_four _

/-- ENTRY (0, q, t) of the block the body leaves is the matching cost of query row q and target row t of the
    blocks it loaded. -/
theorem stored_at (X0 : Vec Ideal S1x900x80 .f32) (X1 : Vec Ideal S1x900x4 .f32) (X2 : Vec Ideal S1x300x4 .f32)
    (X3 : Vec Ideal S1x1x300 .i32) (X4 : Vec Ideal S1x1x4 .f32) :
    out0_5 (F := Ideal) X0 X1 X2 X3 X4 (ix3 0 q t)
      = cost (fun c => X0 (ix3 0 q c)) (fun k => X1 (ix3 0 q k)) (fun k => X2 (ix3 0 t k))
          (fun k => X4 (ix3 0 0 k)) (X3 (ix3 0 0 t)) := by
  unfold out0_5
  rw [View.canon_unit_zero zeros3]
  simp only [View.ld_unit_zero (S := S1x900x80) zeros3, View.ld_unit_zero (S := S1x900x4) zeros3,
    View.ld_unit_zero (S := S1x300x4) zeros3, View.ld_unit_zero (S := S1x1x300) zeros3,
    View.ld_unit_zero (S := S1x1x4) zeros3]
  rw [storedTerm, classTerm, overlapTerm, unionTerm, interTerm, zeroBlock]
  simp only [norm23, norm24, norm25, norm26, norm27, norm28, norm29, predCol0, predCol1, predCol2, predCol3,
    tgtCol0, tgtCol1, tgtCol2, tgtCol3, tgtRow, sizeLane0, sizeLane1, sizeLane2, sizeLane3, sizeRow, zero_word_sub]
  rw [cost, boxCost_four]
  rfl

end Cert.MatchCost.Ker

end
-- ==== Proof.LibIndexExt.lean ====
/-
  Two multi-indices of a literal-rank shape are equal as soon as their coordinates are equal as natural numbers:
  the form in which an index computed by a chain of layout operations is compared with one written by coordinates.
-/
import Idealize.ShloMosaic.Lib.ValueIdx

namespace Cert.IndexExt

open Idealize.ShloMosaic

/-- Rank 1. -/
theorem ext1 {n0 : Nat} {i j : (⟨1, ![n0]⟩ : Shape).Idx} (h0 : (i 0).val = (j 0).val) : i = j :=
  funext fun a => Fin.ext (by match a with | ⟨0, _⟩ => exact h0)

/-- Rank 2. -/
theorem ext2 {n0 n1 : Nat} {i j : (⟨2, ![n0, n1]⟩ : Shape).Idx} (h0 : (i 0).val = (j 0).val)
    (h1 : (i 1).val = (j 1).val) : i = j :=
  funext fun a => Fin.ext (by match a with | ⟨0, _⟩ => exact h0 | ⟨1, _⟩ => exact h1)

/-- Rank 3. -/
theorem ext3 {n0 n1 n2 : Nat} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- Rank 4. -/
theorem ext4 {n0 n1 n2 n3 : Nat} {i j : (⟨4, ![n0, n1, n2, n3]⟩ : Shape).Idx} (h0 : (i 0).val = (j 0).val)
    (h1 : (i 1).val = (j 1).val) (h2 : (i 2).val = (j 2).val) (h3 : (i 3).val = (j 3).val) : i = j :=
  funext fun a => Fin.ext (by
    match a with | ⟨0, _⟩ => exact h0 | ⟨1, _⟩ => exact h1 | ⟨2, _⟩ => exact h2 | ⟨3, _⟩ => exact h3)

end Cert.IndexExt
-- ==== Proof.KerArray.lean ====
/-
  From the blocks to the array: the kernel's result array is the cost array of its arguments.

  The grid has one point per image. At point t every window's block is image t of its array: the block's element
  (0, y1, y2) sits at array index (t, y1, y2) — the printed index maps send point t to block (t, 0, 0), decided once
  over the 64 points. The class words and the size row reach the region through a host reshape that inserts a unit
  axis, so element (t, 0, y) of what the region finds is element (t, y) of the argument. Point t writes back the body's
  block, whose entry (0, q, k) is the matching cost of query q and target k of image t (the block lemma); the 64
  blocks tile the result array, so it ends as the cost array.
-/
import proofs.«127615_j635655159996_1_alg».proof.Proof.Gen.KernelIdeal.Value
import proofs.«127615_j635655159996_1_alg».proof.Proof.KerCost
import proofs.«127615_j635655159996_1_alg».proof.Proof.LibIndexExt
import Idealize.ShloMosaic.Lib.StableHlo.Run

noncomputable section

namespace Cert.MatchCost.Arr

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Value Cert.IndexExt

variable (m : (ℓ : Loc nD τ sig) → Buf (Elt Ideal) ℓ) (ρ : Dev nD → PrngReg)

/-- The image a grid point works on. -/
def image (t : Fin cfg0.N) : Fin 64 := ⟨t.val, by have h : t.val < grid0.N := t.isLt; rw [N_0] at h; exact h⟩

/-- The printed index maps, decided over the grid: every window's block at point t is block (t, 0, 0). -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-! ## What the region finds in the two reshaped arrays -/

/-- The class words with a unit axis inserted. -/
theorem found_classes (c : Dev nD) :
    (V m c main_v0 : S64x1x300.Idx → Elt Ideal .i32)
      = shapeCast S64x1x300 (m ((c : Thread nD τ).loc main_arg3)) shapeCasts_S64x300_S64x1x300 := by
  dsimp only [Gen.V, Gen.hostOps0]; after_results; rfl

/-- The size rows with a unit axis inserted. -/
theorem found_sizes (c : Dev nD) :
    (V m c main_v1 : S64x1x4.Idx → Elt Ideal .f32)
      = shapeCast S64x1x4 (m ((c : Thread nD τ).loc main_arg4)) shapeCasts_S64x4_S64x1x4 := by
  dsimp only [Gen.V, Gen.hostOps0]; after_results; rfl

/-! ## The input blocks at a point -/

/-- The scores' block at point t is image t of the scores. -/
theorem scores_block (c : Dev nD) (t : Fin cfg0.N) (q : Fin 900) (k : Fin 80) :
    (iblk m c 0 t : Vec Ideal S1x900x80 .f32) (ix3 0 q k)
      = ((m ((c : Thread nD τ).loc main_arg0)) : S64x900x80.Idx → Elt Ideal .f32) (ix3 (image t) q k) := by
  obtain ⟨⟨e0, e1, e2⟩, -⟩ := index_facts t
  unfold iblk
  rw [View.read_apply]
  show V m c main_arg0 _ = _
  rw [V_main_arg0]
  refine congrArg ((m ((c : Thread nD τ).loc main_arg0)) : S64x900x80.Idx → Elt Ideal .f32) (ext3 ?_ ?_ ?_)
  · show win0_0.index t (0 : Fin 3) * 1 + 1 * 0 = t.val; omega
  · show win0_0.index t (1 : Fin 3) * 900 + 1 * q.val = q.val; omega
  · show win0_0.index t (2 : Fin 3) * 80 + 1 * k.val = k.val; omega

/-- The predicted boxes' block at point t. -/
theorem pred_block (c : Dev nD) (t : Fin cfg0.N) (q : Fin 900) (k : Fin 4) :
    (iblk m c 1 t : Vec Ideal S1x900x4 .f32) (ix3 0 q k)
      = ((m ((c : Thread nD τ).loc main_arg1)) : S64x900x4.Idx → Elt Ideal .f32) (ix3 (image t) q k) := by
  obtain ⟨-, ⟨e0, e1, e2⟩, -⟩ := index_facts t
  unfold iblk
  rw [View.read_apply]
  show V m c main_arg1 _ = _
  rw [V_main_arg1]
  refine congrArg ((m ((c : Thread nD τ).loc main_arg1)) : S64x900x4.Idx → Elt Ideal .f32) (ext3 ?_ ?_ ?_)
  · show win0_1.index t (0 : Fin 3) * 1 + 1 * 0 = t.val; omega
  · show win0_1.index t (1 : Fin 3) * 900 + 1 * q.val = q.val; omega
  · show win0_1.index t (2 : Fin 3) * 4 + 1 * k.val = k.val; omega

/-- The target boxes' block at point t. -/
theorem tgt_block (c : Dev nD) (t : Fin cfg0.N) (j : Fin 300) (k : Fin 4) :
    (iblk m c 2 t : Vec Ideal S1x300x4 .f32) (ix3 0 j k)
      = ((m ((c : Thread nD τ).loc main_arg2)) : S64x300x4.Idx → Elt Ideal .f32) (ix3 (image t) j k) := by
  obtain ⟨-, -, ⟨e0, e1, e2⟩, -⟩ := index_facts t
  unfold iblk
  rw [View.read_apply]
  show V m c main_arg2 _ = _
  rw [V_main_arg2]
  refine congrArg ((m ((c : Thread nD τ).loc main_arg2)) : S64x300x4.Idx → Elt Ideal .f32) (ext3 ?_ ?_ ?_)
  · show win0_2.index t (0 : Fin 3) * 1 + 1 * 0 = t.val; omega
  · show win0_2.index t (1 : Fin 3) * 300 + 1 * j.val = j.val; omega
  · show win0_2.index t (2 : Fin 3) * 4 + 1 * k.val = k.val; omega

/-- The class words' block at point t: row t of the class words. -/
theorem classes_block (c : Dev nD) (t : Fin cfg0.N) (j : Fin 300) :
    (iblk m c 3 t : Vec Ideal S1x1x300 .i32) (ix3 0 0 j)
      = ((m ((c : Thread nD τ).loc main_arg3)) : S64x300.Idx → Elt Ideal .i32) (ix2 (image t) j) := by
  obtain ⟨-, -, -, ⟨e0, e1, e2⟩, -⟩ := index_facts t
  unfold iblk
  rw [View.read_apply]
  show (V m c main_v0 : S64x1x300.Idx → Elt Ideal .i32) _ = _
  rw [found_classes]
  refine shapeCast_apply _ _ _ _ ?_
  show ((⟨2, ![64, 300]⟩ : Shape).rowMajor (ix2 (image t) j)).val
    = ((⟨3, ![64, 1, 300]⟩ : Shape).rowMajor (((cfg0.win 3).blk t).view.emb (ix3 0 0 j))).val
  rw [Shape.rowMajor_val_two, Shape.rowMajor_val_three]
  show t.val * 300 + j.val = ((win0_3.index t (0 : Fin 3) * 1 + 1 * 0) * 1 + (win0_3.index t (1 : Fin 3) * 1 + 1 * 0)) * 300
    + (win0_3.index t (2 : Fin 3) * 300 + 1 * j.val)
  omega

/-- The size row's block at point t: row t of the sizes. -/
theorem sizes_block (c : Dev nD) (t : Fin cfg0.N) (k : Fin 4) :
    (iblk m c 4 t : Vec Ideal S1x1x4 .f32) (ix3 0 0 k)
      = ((m ((c : Thread nD τ).loc main_arg4)) : S64x4.Idx → Elt Ideal .f32) (ix2 (image t) k) := by
  obtain ⟨-, -, -, -, ⟨e0, e1, e2⟩, -⟩ := index_facts t
  unfold iblk
  rw [View.read_apply]
  show (V m c main_v1 : S64x1x4.Idx → Elt Ideal .f32) _ = _
  rw [found_sizes]
  refine shapeCast_apply _ _ _ _ ?_
  show ((⟨2, ![64, 4]⟩ : Shape).rowMajor (ix2 (image t) k)).val
    = ((⟨3, ![64, 1, 4]⟩ : Shape).rowMajor (((cfg0.win 4).blk t).view.emb (ix3 0 0 k))).val
  rw [Shape.rowMajor_val_two, Shape.rowMajor_val_three]
  show t.val * 4 + k.val = ((win0_4.index t (0 : Fin 3) * 1 + 1 * 0) * 1 + (win0_4.index t (1 : Fin 3) * 1 + 1 * 0)) * 4
    + (win0_4.index t (2 : Fin 3) * 4 + 1 * k.val)
  omega

/-! ## What a point writes back -/

/-- The cost array of the arguments as launched. -/
abbrev result (c : Dev nD) : S64x900x300.Idx → Elt Ideal .f32 :=
  costArray (m ((c : Thread nD τ).loc main_arg0)) (m ((c : Thread nD τ).loc main_arg1)) (m ((c : Thread nD τ).loc main_arg2)) (m ((c : Thread nD τ).loc main_arg3)) (m ((c : Thread nD τ).loc main_arg4))

/-- Entry (0, q, j) of the block point t leaves is entry (t, q, j) of the cost array. -/
theorem block_entry (c : Dev nD) (t : Fin cfg0.N) (q : Fin 900) (j : Fin 300) :
    out0_5 (F := Ideal) (iblk m c 0 t) (iblk m c 1 t) (iblk m c 2 t) (iblk m c 3 t) (iblk m c 4 t) (ix3 0 q j)
      = result m c (ix3 (image t) q j) := by
  refine (Cert.MatchCost.Ker.stored_at q j (iblk m c 0 t) (iblk m c 1 t) (iblk m c 2 t) (iblk m c 3 t)
    (iblk m c 4 t)).trans ?_
  have e0 : (fun k : Fin 80 => (iblk m c 0 t : Vec Ideal S1x900x80 .f32) (ix3 0 q k))
      = fun k => ((m ((c : Thread nD τ).loc main_arg0)) : S64x900x80.Idx → Elt Ideal .f32) (ix3 (image t) q k) :=
    funext fun k => scores_block m c t q k
  have e1 : (fun k : Fin 4 => (iblk m c 1 t : Vec Ideal S1x900x4 .f32) (ix3 0 q k))
      = fun k => ((m ((c : Thread nD τ).loc main_arg1)) : S64x900x4.Idx → Elt Ideal .f32) (ix3 (image t) q k) :=
    funext fun k => pred_block m c t q k
  have e2 : (fun k : Fin 4 => (iblk m c 2 t : Vec Ideal S1x300x4 .f32) (ix3 0 j k))
      = fun k => ((m ((c : Thread nD τ).loc main_arg2)) : S64x300x4.Idx → Elt Ideal .f32) (ix3 (image t) j k) :=
    funext fun k => tgt_block m c t j k
  have e4 : (fun k : Fin 4 => (iblk m c 4 t : Vec Ideal S1x1x4 .f32) (ix3 0 0 k))
      = fun k => ((m ((c : Thread nD τ).loc main_arg4)) : S64x4.Idx → Elt Ideal .f32) (ix2 (image t) k) :=
    funext fun k => sizes_block m c t k
  rw [e0, e1, e2, e4, classes_block m c t j]
  rfl

/-- WHAT POINT t WRITES BACK is block t of the cost array. -/
theorem flushed_eq (c : Dev nD) (t : Fin cfg0.N) :
    (dats m 0 c).flushed 5 t = ((cfg0.win 5).blk t).view.read (Elt Ideal) (result m c) := by
  obtain ⟨-, -, -, -, -, ⟨e0, e1, e2⟩⟩ := index_facts t
  rw [flushed5]
  funext y
  rw [View.read_apply]
  show out0_5 (F := Ideal) (iblk m c 0 t) (iblk m c 1 t) (iblk m c 2 t) (iblk m c 3 t) (iblk m c 4 t) y = _
  have hy0 : (y 0).val < 1 := (y 0).isLt
  have hy : (y : S1x900x300.Idx) = ix3 (0 : Fin 1) (y 1) (y 2) := ext3 (by show (y 0).val = 0; omega) rfl rfl
  refine (congrArg (out0_5 (F := Ideal) (iblk m c 0 t) (iblk m c 1 t) (iblk m c 2 t) (iblk m c 3 t) (iblk m c 4 t)) hy).trans
    ((block_entry m c t (y 1) (y 2)).trans ?_)
  refine congrArg (result m c) (ext3 ?_ ?_ ?_)
  · show t.val = win0_5.index t (0 : Fin 3) * 1 + 1 * (y 0).val; omega
  · show (y 1).val = win0_5.index t (1 : Fin 3) * 900 + 1 * (y 1).val; omega
  · show (y 2).val = win0_5.index t (2 : Fin 3) * 300 + 1 * (y 2).val; omega

/-! ## The array after the run -/

/-- Every index of the result array is in the block of the point of its image. -/
theorem covered (c : Dev nD) (i : S64x900x300.Idx) :
    ∃ t : Fin cfg0.N, (cfg0.win 5).flush t = true ∧ i ∈ ((cfg0.win 5).blk t).view.set := by
  have h0 : (i 0).val < 64 := (i 0).isLt
  have h1 : (i 1).val < 900 := (i 1).isLt
  have h2 : (i 2).val < 300 := (i 2).isLt
  have hN : (i 0).val < grid0.N := by rw [N_0]; exact h0
  refine ⟨⟨(i 0).val, hN⟩, flush0_5 _, ?_⟩
  obtain ⟨-, -, -, -, -, ⟨e0', e1, e2⟩⟩ := index_facts ⟨(i 0).val, hN⟩
  have e0 : win0_5.index ⟨(i 0).val, hN⟩ (0 : Fin 3) = (i 0).val := e0'
  show i ∈ ((View.whole main_v2).slice (win0_5.rect ⟨(i 0).val, hN⟩)).set
  rw [View.set_slice_whole, Rect.mem_set_unit]
  intro a
  match a with
  | ⟨0, _⟩ =>
    show win0_5.index ⟨(i 0).val, hN⟩ (0 : Fin 3) * 1 ≤ (i 0).val
      ∧ (i 0).val < win0_5.index ⟨(i 0).val, hN⟩ (0 : Fin 3) * 1 + 1
    rw [e0]; omega
  | ⟨1, _⟩ =>
    show win0_5.index ⟨(i 0).val, hN⟩ (1 : Fin 3) * 900 ≤ (i 1).val
      ∧ (i 1).val < win0_5.index ⟨(i 0).val, hN⟩ (1 : Fin 3) * 900 + 900
    rw [e1]; omega
  | ⟨2, _⟩ =>
    show win0_5.index ⟨(i 0).val, hN⟩ (2 : Fin 3) * 300 ≤ (i 2).val
      ∧ (i 2).val < win0_5.index ⟨(i 0).val, hN⟩ (2 : Fin 3) * 300 + 300
    rw [e2]; omega

/-- THE ARRAY after the run is the cost array of the arguments. -/
theorem final (c : Dev nD) : (dats m 0 c).arrAt 5 cfg0.N = result m c :=
  (dats m 0 c).arrAt_eq_of_cover 5 (result m c) (fun t _ => flushed_eq m c t) (covered c)

/-- The kernel's run re-posted: the result array at the cost array of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.MatchCost.Arr

end
-- ==== Proof.RefBoxes.lean ====
/-
  The reference program's box terms read at an entry, in terms of the specification.

  Every stage of the reference is an array over the whole batch; an entry (b, q, t) of a pairwise stage depends on row
  (b, q) of the predicted boxes, row (b, t) of the target boxes and row b of the image sizes. Each lemma reads one
  stage at an index written by coordinates: a column of a box array (a slice of width one, reshaped), the two areas,
  the corner-wise maxima and minima over a last axis of extent two, the clamp at zero, the intersection, the union,
  the IoU with its select, the enclosing box, the generalized IoU, and the sum over the four coordinates.
-/
import proofs.«127615_j635655159996_1_alg».proof.Proof.Gen.ReferenceIdeal.Read
import proofs.«127615_j635655159996_1_alg».proof.Proof.Spec
import proofs.«127615_j635655159996_1_alg».proof.Proof.LibIndexExt

noncomputable section

namespace Cert.MatchCost.Ref

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read Cert.IndexExt

variable (x1 : (⟨S64x900x4, .f32⟩ : BufTy).Contents (Elt Ideal)) (x2 : (⟨S64x300x4, .f32⟩ : BufTy).Contents (Elt Ideal))
  (x4 : (⟨S64x4, .f32⟩ : BufTy).Contents (Elt Ideal))
variable (b : Fin 64) (q : Fin 900) (t : Fin 300)

/-! ## The columns of the two box arrays -/

/-- Column 2 of the predicted boxes at (b, q): the slice of width one at offset 2, its unit axis dropped. -/
theorem predCol2 : val_main_v28 (F := Ideal) x1 (ix2 b q) = x1 (ix3 b q 2) := by
  rw [val_main_v28_apply, val_main_v27_apply]
  refine congrArg x1 (ext3 ?_ ?_ rfl)
  · show (b.val * 900 + q.val) / 900 = b.val; have := q.isLt; omega
  · show (b.val * 900 + q.val) / 1 % 900 = q.val; have := q.isLt; omega

/-- Column 0 of the predicted boxes at (b, q): the slice of width one at offset 0, its unit axis dropped. -/
theorem predCol0 : val_main_v30 (F := Ideal) x1 (ix2 b q) = x1 (ix3 b q 0) := by
  rw [val_main_v30_apply, val_main_v29_apply]
  refine congrArg x1 (ext3 ?_ ?_ rfl)
  · show (b.val * 900 + q.val) / 900 = b.val; have := q.isLt; omega
  · show (b.val * 900 + q.val) / 1 % 900 = q.val; have := q.isLt; omega

/-- Column 3 of the predicted boxes at (b, q): the slice of width one at offset 3, its unit axis dropped. -/
theorem predCol3 : val_main_v33 (F := Ideal) x1 (ix2 b q) = x1 (ix3 b q 3) := by
  rw [val_main_v33_apply, val_main_v32_apply]
  refine congrArg x1 (ext3 ?_ ?_ rfl)
  · show (b.val * 900 + q.val) / 900 = b.val; have := q.isLt; omega
  · show (b.val * 900 + q.val) / 1 % 900 = q.val; have := q.isLt; omega

/-- Column 1 of the predicted boxes at (b, q): the slice of width one at offset 1, its unit axis dropped. -/
theorem predCol1 : val_main_v35 (F := Ideal) x1 (ix2 b q) = x1 (ix3 b q 1) := by
  rw [val_main_v35_apply, val_main_v34_apply]
  refine congrArg x1 (ext3 ?_ ?_ rfl)
  · show (b.val * 900 + q.val) / 900 = b.val; have := q.isLt; omega
  · show (b.val * 900 + q.val) / 1 % 900 = q.val; have := q.isLt; omega

/-- Column 2 of the target boxes at (b, t). -/
theorem tgtCol2 : val_main_v39 (F := Ideal) x2 (ix2 b t) = x2 (ix3 b t 2) := by
  rw [val_main_v39_apply, val_main_v38_apply]
  refine congrArg x2 (ext3 ?_ ?_ rfl)
  · show (b.val * 300 + t.val) / 300 = b.val; have := t.isLt; omega
  · show (b.val * 300 + t.val) / 1 % 300 = t.val; have := t.isLt; omega

/-- Column 0 of the target boxes at (b, t). -/
theorem tgtCol0 : val_main_v41 (F := Ideal) x2 (ix2 b t) = x2 (ix3 b t 0) := by
  rw [val_main_v41_apply, val_main_v40_apply]
  refine congrArg x2 (ext3 ?_ ?_ rfl)
  · show (b.val * 300 + t.val) / 300 = b.val; have := t.isLt; omega
  · show (b.val * 300 + t.val) / 1 % 300 = t.val; have := t.isLt; omega

/-- Column 3 of the target boxes at (b, t). -/
theorem tgtCol3 : val_main_v44 (F := Ideal) x2 (ix2 b t) = x2 (ix3 b t 3) := by
  rw [val_main_v44_apply, val_main_v43_apply]
  refine congrArg x2 (ext3 ?_ ?_ rfl)
  · show (b.val * 300 + t.val) / 300 = b.val; have := t.isLt; omega
  · show (b.val * 300 + t.val) / 1 % 300 = t.val; have := t.isLt; omega

/-- Column 1 of the target boxes at (b, t). -/
theorem tgtCol1 : val_main_v46 (F := Ideal) x2 (ix2 b t) = x2 (ix3 b t 1) := by
  rw [val_main_v46_apply, val_main_v45_apply]
  refine congrArg x2 (ext3 ?_ ?_ rfl)
  · show (b.val * 300 + t.val) / 300 = b.val; have := t.isLt; omega
  · show (b.val * 300 + t.val) / 1 % 300 = t.val; have := t.isLt; omega

/-! ## The areas -/

/-- The predicted box's area at (b, q). -/
theorem predArea : val_main_v37 (F := Ideal) x1 (ix2 b q) = area (fun k => x1 (ix3 b q k)) := by
  rw [val_main_v37_apply, val_main_v31_apply, val_main_v36_apply, predCol2, predCol0, predCol3, predCol1]
  rfl

/-- The target box's area at (b, t). -/
theorem tgtArea : val_main_v48 (F := Ideal) x2 (ix2 b t) = area (fun k => x2 (ix3 b t k)) := by
  rw [val_main_v48_apply, val_main_v42_apply, val_main_v47_apply, tgtCol2, tgtCol0, tgtCol3, tgtCol1]
  rfl

/-! ## The corner pairs: a last axis of extent two holds (x, y) of one corner -/

/-- The predicted box's low corner, spread over the targets (first use). -/
theorem predLowA (u : Fin 2) (k : Fin 4) (hk : k.val = u.val) :
    val_main_v53 (F := Ideal) x1 (ix4 b q t u) = x1 (ix3 b q k) := by
  rw [val_main_v53_apply, val_main_v50_apply, val_main_v49_apply]
  exact congrArg x1 (ext3 rfl rfl hk.symm)

/-- The target box's low corner, spread over the queries (first use). -/
theorem tgtLowA (u : Fin 2) (k : Fin 4) (hk : k.val = u.val) :
    val_main_v54 (F := Ideal) x2 (ix4 b q t u) = x2 (ix3 b t k) := by
  rw [val_main_v54_apply, val_main_v52_apply, val_main_v51_apply]
  exact congrArg x2 (ext3 rfl rfl hk.symm)

/-- The predicted box's high corner (first use). -/
theorem predHighA (u : Fin 2) (k : Fin 4) (hk : k.val = 2 + u.val) :
    val_main_v60 (F := Ideal) x1 (ix4 b q t u) = x1 (ix3 b q k) := by
  rw [val_main_v60_apply, val_main_v57_apply, val_main_v56_apply]
  exact congrArg x1 (ext3 rfl rfl hk.symm)

/-- The target box's high corner (first use). -/
theorem tgtHighA (u : Fin 2) (k : Fin 4) (hk : k.val = 2 + u.val) :
    val_main_v61 (F := Ideal) x2 (ix4 b q t u) = x2 (ix3 b t k) := by
  rw [val_main_v61_apply, val_main_v59_apply, val_main_v58_apply]
  exact congrArg x2 (ext3 rfl rfl hk.symm)

/-- The predicted box's low corner (second use). -/
theorem predLowB (u : Fin 2) (k : Fin 4) (hk : k.val = u.val) :
    val_main_v86 (F := Ideal) x1 (ix4 b q t u) = x1 (ix3 b q k) := by
  rw [val_main_v86_apply, val_main_v83_apply, val_main_v82_apply]
  exact congrArg x1 (ext3 rfl rfl hk.symm)

/-- The target box's low corner (second use). -/
theorem tgtLowB (u : Fin 2) (k : Fin 4) (hk : k.val = u.val) :
    val_main_v87 (F := Ideal) x2 (ix4 b q t u) = x2 (ix3 b t k) := by
  rw [val_main_v87_apply, val_main_v85_apply, val_main_v84_apply]
  exact congrArg x2 (ext3 rfl rfl hk.symm)

/-- The predicted box's high corner (second use). -/
theorem predHighB (u : Fin 2) (k : Fin 4) (hk : k.val = 2 + u.val) :
    val_main_v93 (F := Ideal) x1 (ix4 b q t u) = x1 (ix3 b q k) := by
  rw [val_main_v93_apply, val_main_v90_apply, val_main_v89_apply]
  exact congrArg x1 (ext3 rfl rfl hk.symm)

/-- The target box's high corner (second use). -/
theorem tgtHighB (u : Fin 2) (k : Fin 4) (hk : k.val = 2 + u.val) :
    val_main_v94 (F := Ideal) x2 (ix4 b q t u) = x2 (ix3 b t k) := by
  rw [val_main_v94_apply, val_main_v92_apply, val_main_v91_apply]
  exact congrArg x2 (ext3 rfl rfl hk.symm)

/-! ## The intersection -/

/-- One clamped extent of the intersection: max(0, min of the high corners − max of the low corners), on axis `u`. -/
theorem interExtent (u : Fin 2) (kl kh : Fin 4) (hl : kl.val = u.val) (hh : kh.val = 2 + u.val) :
    val_main_v64 (F := Ideal) x1 x2 (ix4 b q t u)
      = max zero32 (min (x1 (ix3 b q kh)) (x2 (ix3 b t kh)) - max (x1 (ix3 b q kl)) (x2 (ix3 b t kl))) := by
  rw [val_main_v64_apply, val_main_call1_v1_apply, val_main_call1_v0_apply, val_main_cst_3_apply, val_main_v63_apply,
    val_main_v62_apply, val_main_v55_apply, predHighA x1 b q t u kh hh, tgtHighA x2 b q t u kh hh,
    predLowA x1 b q t u kl hl, tgtLowA x2 b q t u kl hl]
  rfl

/-- The two extents, picked out of the last axis and its unit axis dropped. -/
theorem interPick0 : val_main_v66 (F := Ideal) x1 x2 (ix3 b q t) = val_main_v64 (F := Ideal) x1 x2 (ix4 b q t 0) := by
  rw [val_main_v66_apply, val_main_v65_apply]
  refine congrArg (val_main_v64 (F := Ideal) x1 x2) (ext4 ?_ ?_ ?_ rfl)
  · show ((b.val * 900 + q.val) * 300 + t.val) / 270000 = b.val; have := q.isLt; have := t.isLt; omega
  · show ((b.val * 900 + q.val) * 300 + t.val) / 300 % 900 = q.val; have := q.isLt; have := t.isLt; omega
  · show ((b.val * 900 + q.val) * 300 + t.val) / 1 % 300 = t.val; have := q.isLt; have := t.isLt; omega

theorem interPick1 : val_main_v68 (F := Ideal) x1 x2 (ix3 b q t) = val_main_v64 (F := Ideal) x1 x2 (ix4 b q t 1) := by
  rw [val_main_v68_apply, val_main_v67_apply]
  refine congrArg (val_main_v64 (F := Ideal) x1 x2) (ext4 ?_ ?_ ?_ rfl)
  · show ((b.val * 900 + q.val) * 300 + t.val) / 270000 = b.val; have := q.isLt; have := t.isLt; omega
  · show ((b.val * 900 + q.val) * 300 + t.val) / 300 % 900 = q.val; have := q.isLt; have := t.isLt; omega
  · show ((b.val * 900 + q.val) * 300 + t.val) / 1 % 300 = t.val; have := q.isLt; have := t.isLt; omega

/-- The intersection's area at (b, q, t). -/
theorem inter_at : val_main_v69 (F := Ideal) x1 x2 (ix3 b q t)
    = inter (fun k => x1 (ix3 b q k)) (fun k => x2 (ix3 b t k)) := by
  rw [val_main_v69_apply, interPick0, interPick1, interExtent x1 x2 b q t 0 0 2 rfl rfl,
    interExtent x1 x2 b q t 1 1 3 rfl rfl]
  rfl

/-! ## The union and the IoU -/

/-- The union's area at (b, q, t): the two areas spread along the other axis, minus the intersection. -/
theorem union_at : val_main_v75 (F := Ideal) x1 x2 (ix3 b q t)
    = union (fun k => x1 (ix3 b q k)) (fun k => x2 (ix3 b t k)) := by
  rw [val_main_v75_apply, val_main_v74_apply, val_main_v72_apply, val_main_v70_apply, val_main_v73_apply,
    val_main_v71_apply, inter_at]
  rw [show idx_main_v70 (idx_main_v72 (ix3 b q t)) = ix2 b q from ext2 rfl rfl,
    show idx_main_v71 (idx_main_v73 (ix3 b q t)) = ix2 b t from ext2 rfl rfl, predArea, tgtArea]
  rfl

/-- The IoU at (b, q, t), zero where the intersection is not positive. -/
theorem iou_at : val_main_v81 (F := Ideal) x1 x2 (ix3 b q t)
    = iou (fun k => x1 (ix3 b q k)) (fun k => x2 (ix3 b t k)) := by
  rw [val_main_v81_apply, val_main_v77_apply, val_main_v80_apply, val_main_v79_apply, val_main_v76_apply,
    val_main_cst_4_apply, val_main_v78_apply, val_main_cst_5_apply, val_main_call2_v1_apply, val_main_call2_v0_apply,
    val_main_cst_6_apply, inter_at, union_at]
  rfl

/-! ## The enclosing box and the generalized IoU -/

/-- One clamped extent of the enclosing box: max(0, max of the high corners − min of the low corners). -/
theorem hullExtent (u : Fin 2) (kl kh : Fin 4) (hl : kl.val = u.val) (hh : kh.val = 2 + u.val) :
    val_main_v97 (F := Ideal) x1 x2 (ix4 b q t u)
      = max zero32 (max (x1 (ix3 b q kh)) (x2 (ix3 b t kh)) - min (x1 (ix3 b q kl)) (x2 (ix3 b t kl))) := by
  rw [val_main_v97_apply, val_main_call3_v1_apply, val_main_call3_v0_apply, val_main_cst_7_apply, val_main_v96_apply,
    val_main_v95_apply, val_main_v88_apply, predHighB x1 b q t u kh hh, tgtHighB x2 b q t u kh hh,
    predLowB x1 b q t u kl hl, tgtLowB x2 b q t u kl hl]
  rfl

theorem hullPick0 : val_main_v99 (F := Ideal) x1 x2 (ix3 b q t) = val_main_v97 (F := Ideal) x1 x2 (ix4 b q t 0) := by
  rw [val_main_v99_apply, val_main_v98_apply]
  refine congrArg (val_main_v97 (F := Ideal) x1 x2) (ext4 ?_ ?_ ?_ rfl)
  · show ((b.val * 900 + q.val) * 300 + t.val) / 270000 = b.val; have := q.isLt; have := t.isLt; omega
  · show ((b.val * 900 + q.val) * 300 + t.val) / 300 % 900 = q.val; have := q.isLt; have := t.isLt; omega
  · show ((b.val * 900 + q.val) * 300 + t.val) / 1 % 300 = t.val; have := q.isLt; have := t.isLt; omega

theorem hullPick1 : val_main_v101 (F := Ideal) x1 x2 (ix3 b q t) = val_main_v97 (F := Ideal) x1 x2 (ix4 b q t 1) := by
  rw [val_main_v101_apply, val_main_v100_apply]
  refine congrArg (val_main_v97 (F := Ideal) x1 x2) (ext4 ?_ ?_ ?_ rfl)
  · show ((b.val * 900 + q.val) * 300 + t.val) / 270000 = b.val; have := q.isLt; have := t.isLt; omega
  · show ((b.val * 900 + q.val) * 300 + t.val) / 300 % 900 = q.val; have := q.isLt; have := t.isLt; omega
  · show ((b.val * 900 + q.val) * 300 + t.val) / 1 % 300 = t.val; have := q.isLt; have := t.isLt; omega

/-- The enclosing box's area at (b, q, t). -/
theorem hull_at : val_main_v102 (F := Ideal) x1 x2 (ix3 b q t)
    = hull (fun k => x1 (ix3 b q k)) (fun k => x2 (ix3 b t k)) := by
  rw [val_main_v102_apply, hullPick0, hullPick1, hullExtent x1 x2 b q t 0 0 2 rfl rfl,
    hullExtent x1 x2 b q t 1 1 3 rfl rfl]
  rfl

/-- Minus the generalized IoU at (b, q, t). -/
theorem negGiou_at : val_main_v108 (F := Ideal) x1 x2 (ix3 b q t)
    = -(giou (fun k => x1 (ix3 b q k)) (fun k => x2 (ix3 b t k))) := by
  rw [val_main_v108_apply, val_main_v107_apply, val_main_v106_apply, val_main_v103_apply, val_main_v105_apply,
    val_main_v104_apply, val_main_cst_8_apply, iou_at, hull_at, union_at]
  rfl

/-! ## The L1 distance of the normalized boxes -/

/-- A normalized predicted coordinate, spread over the targets. -/
theorem predNorm (k : Fin 4) : val_main_v22 (F := Ideal) x1 x4 (ix4 b q t k)
    = Ideal.div (x1 (ix3 b q k)) (x4 (ix2 b k)) := by
  rw [val_main_v22_apply, val_main_v20_apply, val_main_v16_apply, val_main_v15_apply, val_main_v14_apply]
  rw [show idx_main_v20 (idx_main_v22 (ix4 b q t k)) = ix3 b q k from ext3 rfl rfl rfl,
    show idx_main_v14 (idx_main_v15 (ix3 b q k)) = ix2 b k from ext2 rfl rfl]
  rfl

/-- A normalized target coordinate, spread over the queries. -/
theorem tgtNorm (k : Fin 4) : val_main_v23 (F := Ideal) x2 x4 (ix4 b q t k)
    = Ideal.div (x2 (ix3 b t k)) (x4 (ix2 b k)) := by
  rw [val_main_v23_apply, val_main_v21_apply, val_main_v19_apply, val_main_v18_apply, val_main_v17_apply]
  rw [show idx_main_v21 (idx_main_v23 (ix4 b q t k)) = ix3 b t k from ext3 rfl rfl rfl,
    show idx_main_v17 (idx_main_v18 (ix3 b t k)) = ix2 b k from ext2 rfl rfl]
  rfl

/-- The box term at (b, q, t): the sum over the four coordinates, started at the zero word. -/
theorem boxCost_at : val_main_v26 (F := Ideal) x1 x2 x4 (ix3 b q t)
    = boxCost (fun k => x1 (ix3 b q k)) (fun k => x2 (ix3 b t k)) (fun k => x4 (ix2 b k)) := by
  rw [val_main_v26_apply, val_main_cst_2_apply]
  show Ideal.ofBits .f32 0x00000000#32 + _ = _
  rw [Ideal.ofBits_zero_f32, zero_add]
  refine Finset.sum_congr rfl fun k _ => ?_
  rw [show idx_main_v26 (ix3 b q t) k = ix4 b q t k from ext4 rfl rfl rfl rfl, val_main_v25_apply, val_main_v24_apply,
    predNorm, tgtNorm]
  rfl

end Cert.MatchCost.Ref

end
-- ==== Proof.RefClass.lean ====
/-
  The reference program's class term and its final result read at an entry, in terms of the specification.

  The softmax of the class scores along the last axis: the row maximum (a fold of max from −∞ over the 80 classes, then
  once more against −∞), the shifted exponentials, their sum (started at the zero word), the quotient. The indicator of
  the target's class: the class word spread along a new last axis, compared with the position along it, the bit read
  as a number. Their batched product contracts the class axis: a sum over the 80 classes. The cost is the weighted
  sum of the three terms; `reference_eq` states it for the whole array.
-/
import proofs.«127615_j635655159996_1_alg».proof.Proof.RefBoxes
import Idealize.ShloMosaic.PureOps.Ideal.Laws

noncomputable section

namespace Cert.MatchCost.Ref

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read Cert.IndexExt

variable (x0 : (⟨S64x900x80, .f32⟩ : BufTy).Contents (Elt Ideal)) (x1 : (⟨S64x900x4, .f32⟩ : BufTy).Contents (Elt Ideal))
  (x2 : (⟨S64x300x4, .f32⟩ : BufTy).Contents (Elt Ideal)) (x3 : (⟨S64x300, .i32⟩ : BufTy).Contents (Elt Ideal))
  (x4 : (⟨S64x4, .f32⟩ : BufTy).Contents (Elt Ideal))
variable (b : Fin 64) (q : Fin 900) (t : Fin 300)

/-! ## The softmax -/

/-- The row maximum of the scores at (b, q): the host's reduce with a maximum body over the class axis is the fold of
    max from −∞ over the 80 classes, and the program takes the maximum with −∞ once more. -/
theorem rowMax_at : val_main_v2 (F := Ideal) x0 (ix2 b q) = rowMax (fun c => x0 (ix3 b q c)) := by
  have h : S64x900x80.Reduces [2] S64x900 := by decide
  rw [val_main_v2_apply, val_main_v1_apply, val_main_cst_0_apply]
  unfold val_main_v0
  rw [Host.reduce_eq_fold_single (α := Ideal .f32) (FloatOps.maximumf (F := Ideal) (φ := .f32))
    (x0 : FVec Ideal S64x900x80 .f32) _ reducesTo_S64x900x80_S64x900_d2 h h_S_]
  have hf : (x0 ∘ h.lift (ix2 b q)) = fun c : Fin 80 => x0 (ix3 b q c) :=
    funext fun c => congrArg x0 (ext3 rfl rfl rfl)
  show max negInf (Finset.fold max negInf (x0 ∘ h.lift (ix2 b q)) (Finset.univ : Finset (Fin 80))) = _
  rw [hf]
  rfl

/-- A shifted, exponentiated score at (b, q, c). -/
theorem expo_at (c : Fin 80) : val_main_v6 (F := Ideal) x0 (ix3 b q c) = expo (fun c => x0 (ix3 b q c)) c := by
  rw [val_main_v6_apply, val_main_v5_apply, val_main_v4_apply, val_main_v3_apply]
  rw [show idx_main_v3 (idx_main_v4 (ix3 b q c)) = ix2 b q from ext2 rfl rfl, rowMax_at]
  rfl

/-- Their sum over the classes at (b, q). -/
theorem expoSum_at : val_main_v7 (F := Ideal) x0 (ix2 b q) = ∑ k : Fin 80, expo (fun c => x0 (ix3 b q c)) k := by
  rw [val_main_v7_apply, val_main_cst_1_apply]
  show Ideal.ofBits .f32 0x00000000#32 + _ = _
  rw [Ideal.ofBits_zero_f32, zero_add]
  refine Finset.sum_congr rfl fun k _ => ?_
  rw [show idx_main_v7 (ix2 b q) k = ix3 b q k from ext3 rfl rfl rfl, expo_at]

/-- The probability of class `c` at (b, q). -/
theorem prob_at (c : Fin 80) : val_main_v10 (F := Ideal) x0 (ix3 b q c) = prob (fun c => x0 (ix3 b q c)) c := by
  rw [val_main_v10_apply, val_main_v9_apply, val_main_v8_apply]
  rw [show idx_main_v8 (idx_main_v9 (ix3 b q c)) = ix2 b q from ext2 rfl rfl, expo_at, expoSum_at]
  rfl

/-! ## The class indicator -/

/-- The indicator at (b, t, c): the target's class word against the position `c` on the new axis. -/
theorem hot_at (c : Fin 80) : val_main_v11 (F := Ideal) x3 (ix3 b t c) = hot (x3 (ix2 b t)) c := by
  rw [val_main_v11_apply, val_main_call0_v4_apply, val_main_call0_v2_apply, val_main_call0_v0_apply,
    val_main_call0_v3_apply, val_main_call0_v1_apply]
  rw [show idx_main_call0_v0 (idx_main_call0_v2 (ix3 b t c)) = ix2 b t from ext2 rfl rfl]
  rfl

/-! ## The class term -/

/-- Minus the probability of the target's class at (b, q, t): the batched product contracts the class axis. -/
theorem classCost_at : val_main_v13 (F := Ideal) x0 x3 (ix3 b q t)
    = classCost (fun c => x0 (ix3 b q c)) (x3 (ix2 b t)) := by
  rw [val_main_v13_apply, val_main_v12_apply]
  show -(∑ k : Fin 80, _) = -(∑ k : Fin 80, _)
  refine congrArg Neg.neg (Finset.sum_congr rfl fun k _ => ?_)
  rw [show lidx_main_v12 (ix3 b q t) k = ix3 b q k from ext3 rfl rfl rfl,
    show ridx_main_v12 (ix3 b q t) k = ix3 b t k from ext3 rfl rfl rfl, prob_at, hot_at]

/-! ## The cost -/

/-- The reference's result at (b, q, t) is the matching cost of the pair. -/
theorem cost_at : val_main_v116 (F := Ideal) x0 x1 x2 x3 x4 (ix3 b q t)
    = cost (fun c => x0 (ix3 b q c)) (fun k => x1 (ix3 b q k)) (fun k => x2 (ix3 b t k)) (fun k => x4 (ix2 b k))
        (x3 (ix2 b t)) := by
  rw [val_main_v116_apply, val_main_v113_apply, val_main_v115_apply, val_main_v110_apply, val_main_v112_apply,
    val_main_v109_apply, val_main_cst_9_apply, val_main_v111_apply, val_main_cst_10_apply, val_main_v114_apply,
    val_main_cst_11_apply, boxCost_at, classCost_at, negGiou_at]
  rfl

/-- The reference's result array is the cost array of its arguments. -/
theorem reference_eq : val_main_v116 (F := Ideal) x0 x1 x2 x3 x4 = costArray x0 x1 x2 x3 x4 := by
  funext i
  exact (congrArg (val_main_v116 (F := Ideal) x0 x1 x2 x3 x4) (eq_ix3 i)).trans
    (cost_at x0 x1 x2 x3 x4 (i 0) (i 1) (i 2))

end Cert.MatchCost.Ref

end
-- ==== Proof.lean ====
/-
  A pairwise matching-cost kernel against its array-program reference, over the extended reals.

  For each image b of a batch of 64, each of 900 queries q and each of 300 targets t, the cost is
    5 · (L1 distance of the two boxes after dividing each coordinate by the image's size)
    + 1 · (minus the softmax probability, over the query's 80 class scores, of the target's class)
    + 2 · (minus the generalized IoU of the two boxes).
  The kernel works image by image: one grid point loads an image's blocks and stores its [900, 300] block of costs,
  taking box columns apart, spreading per-query values as columns and per-target values as rows, and pairing the
  probabilities with the class indicator by a product that contracts the class axis. The reference computes the same
  formulas on whole arrays, with the four (or two) coordinates on a last axis and a batched product.

  Both are the one function `Cert.MatchCost.costArray` of the arguments, entry by entry. The only laws used between
  their spellings are: a difference from zero is a negation; a sum started at zero is the sum; three nested additions
  are the sum over four terms; and a 0/1 bit widened and read signed is the bit read unsigned. None of them needs the
  inputs to be finite, so the precondition is not opened.

  The three frames are the generated ones (the reference's from its generated run), the idealization rewrote nothing,
  and the algebraic claim sets the kernel's re-posted run beside the reference's run at the same function.
-/
import proofs.«127615_j635655159996_1_alg».proof.Defs
import proofs.«127615_j635655159996_1_alg».proof.Proof.Gen.Kernel
import proofs.«127615_j635655159996_1_alg».proof.Proof.Gen.Kernel.Skeleton
import proofs.«127615_j635655159996_1_alg».proof.Proof.Gen.Kernel.Launch
import proofs.«127615_j635655159996_1_alg».proof.Proof.Gen.Kernel.Points
import proofs.«127615_j635655159996_1_alg».proof.Proof.Gen.Kernel.Frame
import proofs.«127615_j635655159996_1_alg».proof.Proof.Gen.KernelIdeal
import proofs.«127615_j635655159996_1_alg».proof.Proof.Gen.KernelIdeal.Skeleton
import proofs.«127615_j635655159996_1_alg».proof.Proof.Gen.KernelIdeal.Launch
import proofs.«127615_j635655159996_1_alg».proof.Proof.Gen.KernelIdeal.Points
import proofs.«127615_j635655159996_1_alg».proof.Proof.Gen.KernelIdeal.Frame
import proofs.«127615_j635655159996_1_alg».proof.Proof.Gen.ReferenceIdeal
import proofs.«127615_j635655159996_1_alg».proof.Proof.Gen.KernelIdeal.Value
import proofs.«127615_j635655159996_1_alg».proof.Proof.Gen.ReferenceIdeal.Run
import proofs.«127615_j635655159996_1_alg».proof.Proof.Gen.ReferenceIdeal.Read
import proofs.«127615_j635655159996_1_alg».proof.Proof.Gen.Pre_finite_inputs
import proofs.«127615_j635655159996_1_alg».proof.Proof.KerArray
import proofs.«127615_j635655159996_1_alg».proof.Proof.RefClass
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the cost array of the arguments: the kernel's blocks tile it, and the reference's last
    stage is it entry by entry; the arguments agree, so the two results are equal. -/
theorem algebraic : Cert.algebraic_KernelIdeal_ReferenceIdeal := by
  intro m ρ m' ρ' _ hagree
  refine ⟨fun c => Cert.MatchCost.Arr.result m c, Cert.MatchCost.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v116_eq, Cert.MatchCost.Ref.reference_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
